-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S40000x3 : Shape := ⟨2, ![40000, 3]⟩
abbrev S640000 : Shape := ⟨1, ![640000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S40000x3 : S_.BroadcastsInDim S40000x3 (![] : Fin 0 → Fin S40000x3.rank)
  reducesTo_S40000x3_S_d0_1 : S40000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn_part3 {F : FTy → Type} [FloatOps F] (main_arg13 : FVec F S128 .f32) (main_arg14 : FVec F S128x1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  main_v63

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128x1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_v48 main_v49 main_v50

def fn_part1 {F : FTy → Type} [FloatOps F] (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S40000x128 .f32) (main_arg1 : FVec F S40000x3 .f32) (main_arg2 : IVec S640000 32) (main_arg3 : IVec S640000 32) (main_arg4 : FVec F S257x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S40000x3 .f32 := Host.absf main_arg1
  let main_cst_0 : FVec F S_ .f32 := constant S_ .f32 0x7F800000#32
  let main_v5 : FVec F S40000x3 .f32 := broadcastInDim S40000x3 ![] bcast_S_S40000x3 main_cst_0
  let main_v6 : IVec S40000x3 1 := cmpf .olt main_v4 main_v5
  let main_c_1 : IVec S_ 1 := constantI S_ 1 1#1
  let main_v7 : IVec S_ 1 := (fun x v => Host.reduce IntOp.andi x v reducesTo_S40000x3_S_d0_1 h_S_) main_v6 main_c_1
  let main_v8 : IVec S_ 1 := andi main_v3 main_v7
  let main_v9 : FVec F S257x128 .f32 := Host.absf main_arg4
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_v13 main_v16
-- ==== Kernel.lean ====
abbrev S40000x128 : Shape := ⟨2, ![40000, 128]⟩
abbrev S40000x3 : Shape := ⟨2, ![40000, 3]⟩
abbrev S640000 : Shape := ⟨1, ![640000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S_ : Shape := ⟨0, ![]⟩
abbrev S640000x1 : Shape := ⟨2, ![640000, 1]⟩
abbrev S640000x128 : Shape := ⟨2, ![640000, 128]⟩
abbrev S640000x3 : Shape := ⟨2, ![640000, 3]⟩
abbrev S1x128 : Shape := ⟨2, ![1, 128]⟩
abbrev S2560x128 : Shape := ⟨2, ![2560, 128]⟩
abbrev S2560x3 : Shape := ⟨2, ![2560, 3]⟩
abbrev S2560 : Shape := ⟨1, ![2560]⟩
abbrev S2560x1 : Shape := ⟨2, ![2560, 1]⟩
abbrev S40000x1 : Shape := ⟨2, ![40000, 1]⟩
abbrev S4000x128 : Shape := ⟨2, ![4000, 128]⟩

abbrev nBuf : Space → Nat
  | .hbm => 90
  | .vmem => 30
  | .smem => 0
  | _ => 0

abbrev bufTy : (tb : Table) → Fin (tcTables nBuf tb) → BufTy
  | .hbm, ⟨0, _⟩ => ⟨S40000x128, .f32⟩
  | .hbm, ⟨1, _⟩ => ⟨S40000x3, .f32⟩
  | .hbm, ⟨2, _⟩ => ⟨S640000, .i32⟩
  | .hbm, ⟨3, _⟩ => ⟨S640000, .i32⟩
  | .hbm, ⟨4, _⟩ => ⟨S257x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S640000x128, .bf16⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S640000x128, .bf16⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000x3, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x3, .f32⟩
  | .hbm, ⟨53, _⟩ => ⟨S640000x3, .f32⟩
  | .hbm, ⟨54, _⟩ => ⟨S128x128, .f32⟩
  | .hbm, ⟨55, _⟩ => ⟨S128x128, .bf16⟩
  | .hbm, ⟨56, _⟩ => ⟨S128x128, .f32⟩
  | .hbm, ⟨57, _⟩ => ⟨S128x128, .bf16⟩
  | .hbm, ⟨58, _⟩ => ⟨S1x128, .f32⟩
  | .hbm, ⟨59, _⟩ => ⟨S128x128, .bf16⟩
  | .hbm, ⟨60, _⟩ => ⟨S128x128, .bf16⟩
  | .hbm, ⟨61, _⟩ => ⟨S128x1, .bf16⟩
  | .hbm, ⟨62, _⟩ => ⟨S640000x128, .f32⟩
  | .hbm, ⟨63, _⟩ => ⟨S640000x3, .f32⟩
  | .hbm, ⟨64, _⟩ => ⟨S_, .f32⟩
  | .hbm, ⟨65, _⟩ => ⟨S40000x128, .f32⟩
  | .hbm, ⟨66, _⟩ => ⟨S640000x1, .i32⟩
  | .hbm, ⟨67, _⟩ => ⟨S40000x128, .f32⟩
  | .hbm, ⟨68, _⟩ => ⟨S_, .f32⟩
  | .hbm, ⟨69, _⟩ => ⟨S640000x1, .f32⟩
  | .hbm, ⟨70, _⟩ => ⟨S_, .f32⟩
  | .hbm, ⟨71, _⟩ => ⟨S40000x1, .f32⟩
  | .hbm, ⟨72, _⟩ => ⟨S640000x1, .i32⟩
  | .hbm, ⟨73, _⟩ => ⟨S40000x1, .f32⟩
  | .hbm, ⟨74, _⟩ => ⟨S_, .f32⟩
  | .hbm, ⟨75, _⟩ => ⟨S40000x3, .f32⟩
  | .hbm, ⟨76, _⟩ => ⟨S640000x1, .i32⟩
  | .hbm, ⟨77, _⟩ => ⟨S40000x3, .f32⟩
  | .hbm, ⟨78, _⟩ => ⟨S_, .f32⟩
  | .hbm, ⟨79, _⟩ => ⟨S40000x1, .f32⟩
  | .hbm, ⟨80, _⟩ => ⟨S40000x1, .f32⟩
  | .hbm, ⟨81, _⟩ => ⟨S40000x3, .f32⟩
  | .hbm, ⟨82, _⟩ => ⟨S40000x3, .f32⟩
  | .hbm, ⟨83, _⟩ => ⟨S128x128, .f32⟩
  | .hbm, ⟨84, _⟩ => ⟨S128x128, .bf16⟩
  | .hbm, ⟨85, _⟩ => ⟨S128x128, .f32⟩
  | .hbm, ⟨86, _⟩ => ⟨S128x128, .bf16⟩
  | .hbm, ⟨87, _⟩ => ⟨S128x128, .bf16⟩
  | .hbm, ⟨88, _⟩ => ⟨S40000x128, .f32⟩
  | .hbm, ⟨89, _⟩ => ⟨S40000x3, .f32⟩
  | .local _ .vmem, ⟨0, _⟩ => ⟨S2560x128, .bf16⟩
  | .local _ .vmem, ⟨1, _⟩ => ⟨S2560x128, .bf16⟩
  | .local _ .vmem, ⟨2, _⟩ => ⟨S2560x128, .bf16⟩
  | .local _ .vmem, ⟨3, _⟩ => ⟨S2560x128, .bf16⟩
  | .local _ .vmem, ⟨4, _⟩ => ⟨S2560x3, .f32⟩
  | .local _ .vmem, ⟨5, _⟩ => ⟨S2560x3, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S128x128, .bf16⟩
  | .local _ .vmem, ⟨13, _⟩ => ⟨S128, .f32⟩
  | .local _ .vmem, ⟨14, _⟩ => ⟨S128x1, .bf16⟩
  | .local _ .vmem, ⟨15, _⟩ => ⟨S2560x128, .f32⟩
  | .local _ .vmem, ⟨16, _⟩ => ⟨S2560x128, .f32⟩
  | .local _ .vmem, ⟨17, _⟩ => ⟨S2560x3, .f32⟩
  | .local _ .vmem, ⟨18, _⟩ => ⟨S2560x3, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S128x128, .bf16⟩
  | .local _ .vmem, ⟨24, _⟩ => ⟨S128x128, .bf16⟩
  | .local _ .vmem, ⟨25, _⟩ => ⟨S128, .f32⟩
  | .local _ .vmem, ⟨26, _⟩ => ⟨S128x128, .bf16⟩
  | .local _ .vmem, ⟨27, _⟩ => ⟨S128, .f32⟩
  | .local _ .vmem, ⟨28, _⟩ => ⟨S4000x128, .f32⟩
  | .local _ .vmem, ⟨29, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39_0 : Ref sig .tc := ⟨.hbm, 62, rfl⟩
abbrev main_v39_1 : Ref sig .tc := ⟨.hbm, 63, rfl⟩
abbrev main_cst : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2560x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2560x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bitsLt_bf16_f32 : FTy.bits .bf16 < FTy.bits .f32
  slices_S257x128_S128x128_0_0 : S257x128.Slices ![0, 0] S128x128
  slices_S257x128_S128x128_128_0 : S257x128.Slices ![128, 0] S128x128
  slices_S257x128_S1x128_256_0 : S257x128.Slices ![256, 0] S1x128
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  inb_S2560x3_S2560x3_0_0 : ∀ a, (![0, 0] : Fin 2 → Nat) a + S2560x3.size a ≤ S2560x3.size a
  h_S2560x3 : 0 < S2560x3.numel
  shapeCasts_S2560x3_S2560x3 : S2560x3.ShapeCasts S2560x3
  reduces_S2560x3_S2560 : S2560x3.Reduces [1] S2560
  shapeCasts_S2560_S2560x1 : S2560.ShapeCasts S2560x1
  broadcasts_S2560x1_S2560x3 : S2560x1.Broadcasts S2560x3
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128_S128_0 : ∀ a, (![0] : Fin 1 → Nat) a + S128.size a ≤ S128.size a
  h_S128 : 0 < S128.numel
  broadcasts_S2560x1_S2560x128 : S2560x1.Broadcasts S2560x128
  broadcasts_S1x128_S2560x128 : S1x128.Broadcasts S2560x128
  shapeCasts_S128_S1x128 : S128.ShapeCasts S1x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  bcast_S_S40000x128 : S_.BroadcastsInDim S40000x128 (![] : Fin 0 → Fin S40000x128.rank)
  bcast_S_S640000x1 : S_.BroadcastsInDim S640000x1 (![] : Fin 0 → Fin S640000x1.rank)
  bcast_S_S40000x1 : S_.BroadcastsInDim S40000x1 (![] : Fin 0 → Fin S40000x1.rank)
  bcast_S_S40000x3 : S_.BroadcastsInDim S40000x3 (![] : Fin 0 → Fin S40000x3.rank)
  bcast_S40000x1_S40000x3_0_1 : S40000x1.BroadcastsInDim S40000x3 (![0, 1] : Fin 2 → Fin S40000x3.rank)
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  gather_S40000x128_S640000x1_S640000x128_1_0_n_n_0_1_1128_wf : GatherDims.WF S40000x128 S640000x1 S640000x128 [1] [0] [] [0] [] 1 ![1, 128]
  gather_S40000x3_S640000x1_S640000x3_1_0_n_n_0_1_13_wf : GatherDims.WF S40000x3 S640000x1 S640000x3 [1] [0] [] [0] [] 1 ![1, 3]
  dot_S2560x128_S128x128_S2560x128_1_0_0_1_n_n_wf : DotDims.WF S2560x128 S128x128 S2560x128 [1] [0] [0] [1] [] []
  dot_S2560x128_S128x1_S2560x1_1_0_0_1_n_n_wf : DotDims.WF S2560x128 S128x1 S2560x1 [1] [0] [0] [1] [] []
  scatter_S40000x128_S640000x1_S640000x128_1_0_0_1_wf : ScatterDims.WF S40000x128 S640000x1 S640000x128 [1] [0] [0] 1
  scatter_S40000x1_S640000x1_S640000x1_1_0_0_1_wf : ScatterDims.WF S40000x1 S640000x1 S640000x1 [1] [0] [0] 1
  scatter_S40000x3_S640000x1_S640000x3_1_0_0_1_wf : ScatterDims.WF S40000x3 S640000x1 S640000x3 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x128.size a ≤ S640000x128.size a
  hwx0_0 : ∀ i : grid0.Coords, EltTy.bits .bf16 = 32 ∨ (Rect.block (s := S640000x128) S2560x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x128.size a ≤ S640000x128.size a
  hwx0_1 : ∀ i : grid0.Coords, EltTy.bits .bf16 = 32 ∨ (Rect.block (s := S640000x128) S2560x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x3.size a ≤ S640000x3.size a
  hwx0_2 : ∀ i : grid0.Coords, EltTy.bits .f32 = 32 ∨ (Rect.block (s := S640000x3) S2560x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .bf16 = 32 ∨ (Rect.block (s := S128x1) S128x1.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2560x128.size a ≤ S640000x128.size a
  hwx0_12 : ∀ i : grid0.Coords, EltTy.bits .f32 = 32 ∨ (Rect.block (s := S640000x128) S2560x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2560x3.size a ≤ S640000x3.size a
  hwx0_13 : ∀ i : grid0.Coords, EltTy.bits .f32 = 32 ∨ (Rect.block (s := S640000x3) S2560x3.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S40000x128.size a
  hwx1_7 : ∀ i : grid1.Coords, EltTy.bits .f32 = 32 ∨ (Rect.block (s := S40000x128) S4000x128.size (cc1_transform_7 i) (hinb1_7 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def gather_S40000x3_S640000x1_S640000x3_1_0_n_n_0_1_13 : GatherDims S40000x3 S640000x1 S640000x3 where
  offsetDims := [1]
  collapsedSliceDims := [0]
  operandBatchingDims := []
  startIndicesBatchingDims := []
  startIndexMap := [0]
  indexVectorDim := 1
  sliceSizes := ![1, 3]
  wf := gather_S40000x3_S640000x1_S640000x3_1_0_n_n_0_1_13_wf
def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf
def dot_S2560x128_S128x1_S2560x1_1_0_0_1_n_n : DotDims S2560x128 S128x1 S2560x1 where
  lhsContracting := [1]
  rhsContracting := [0]
  lhsNonContracting := [0]
  rhsNonContracting := [1]
  lhsBatch := []
  rhsBatch := []
  wf := dot_S2560x128_S128x1_S2560x1_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000x1_S640000x1_S640000x1_1_0_0_1 : ScatterDims S40000x1 S640000x1 S640000x1 where
  updateWindowDims := [1]
  insertedWindowDims := [0]
  scatterDimsToOperandDims := [0]
  indexVectorDim := 1
  wf := scatter_S40000x1_S640000x1_S640000x1_1_0_0_1_wf
def scatter_S40000x3_S640000x1_S640000x3_1_0_0_1 : ScatterDims S40000x3 S640000x1 S640000x3 where
  updateWindowDims := [1]
  insertedWindowDims := [0]
  scatterDimsToOperandDims := [0]
  indexVectorDim := 1
  wf := scatter_S40000x3_S640000x1_S640000x3_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v7) S2560x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2560x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2560x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v37) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v38) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v39_0) S2560x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v39_1) S2560x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v59) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S40000x128 : Shape := ⟨2, ![40000, 128]⟩
abbrev S40000x3 : Shape := ⟨2, ![40000, 3]⟩
abbrev S640000 : Shape := ⟨1, ![640000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S_ : Shape := ⟨0, ![]⟩
abbrev S640000x1 : Shape := ⟨2, ![640000, 1]⟩
abbrev S640000x3 : Shape := ⟨2, ![640000, 3]⟩
abbrev S640000x128 : Shape := ⟨2, ![640000, 128]⟩
abbrev S640000x257 : Shape := ⟨2, ![640000, 257]⟩
abbrev S1x128 : Shape := ⟨2, ![1, 128]⟩
abbrev S40000x1 : Shape := ⟨2, ![40000, 1]⟩
abbrev S40000x256 : Shape := ⟨2, ![40000, 256]⟩

abbrev nBuf : Space → Nat
  | .hbm => 143
  | .vmem => 0
  | .smem => 0
  | _ => 0

abbrev hbmTy0_0 (i : Nat) : BufTy := match i % 128 with
  | 0 => ⟨S40000x128, .f32⟩
  | 1 => ⟨S40000x3, .f32⟩
  | 2 => ⟨S640000, .i32⟩
  | 3 => ⟨S640000, .i32⟩
  | 4 => ⟨S257x128, .f32⟩
  | 5 => ⟨S128, .f32⟩
  | 6 => ⟨S128x128, .f32⟩
  | 7 => ⟨S128, .f32⟩
  | 8 => ⟨S256x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x1, .f32⟩
  | 15 => ⟨S_, .i32⟩
  | 16 => ⟨S640000, .i32⟩
  | 17 => ⟨S640000, .i1⟩
  | 18 => ⟨S_, .i32⟩
  | 19 => ⟨S640000, .i32⟩
  | 20 => ⟨S640000, .i32⟩
  | 21 => ⟨S640000, .i32⟩
  | 22 => ⟨S640000x1, .i32⟩
  | 23 => ⟨S640000x3, .f32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000x3, .f32⟩
  | 33 => ⟨S640000x3, .f32⟩
  | 34 => ⟨S640000x3, .f32⟩
  | 35 => ⟨S_, .f32⟩
  | 36 => ⟨S640000, .f32⟩
  | 37 => ⟨S640000x1, .f32⟩
  | 38 => ⟨S640000x1, .f32⟩
  | 39 => ⟨S_, .f32⟩
  | 40 => ⟨S640000x1, .f32⟩
  | 41 => ⟨S640000x1, .f32⟩
  | 42 => ⟨S640000x3, .f32⟩
  | 43 => ⟨S640000x3, .f32⟩
  | 44 => ⟨S_, .i32⟩
  | 45 => ⟨S640000, .i32⟩
  | 46 => ⟨S640000, .i1⟩
  | 47 => ⟨S_, .i32⟩
  | 48 => ⟨S640000, .i32⟩
  | 49 => ⟨S640000, .i32⟩
  | 50 => ⟨S640000, .i32⟩
  | 51 => ⟨S640000x1, .i32⟩
  | 52 => ⟨S640000x128, .f32⟩
  | 53 => ⟨S_, .i32⟩
  | 54 => ⟨S640000, .i32⟩
  | 55 => ⟨S640000, .i1⟩
  | 56 => ⟨S_, .i32⟩
  | 57 => ⟨S640000, .i32⟩
  | 58 => ⟨S640000, .i32⟩
  | 59 => ⟨S640000, .i32⟩
  | 60 => ⟨S640000x1, .i32⟩
  | 61 => ⟨S640000x128, .f32⟩
  | 62 => ⟨S640000x257, .f32⟩
  | 63 => ⟨S640000x128, .f32⟩
  | 64 => ⟨S1x128, .f32⟩
  | 65 => ⟨S640000x128, .f32⟩
  | 66 => ⟨S640000x128, .f32⟩
  | 67 => ⟨S640000x128, .f32⟩
  | 68 => ⟨S640000x128, .f32⟩
  | 69 => ⟨S_, .f32⟩
  | 70 => ⟨S640000x128, .f32⟩
  | 71 => ⟨S640000x128, .f32⟩
  | 72 => ⟨S_, .f32⟩
  | 73 => ⟨S640000x128, .f32⟩
  | 74 => ⟨S640000x128, .f32⟩
  | 75 => ⟨S640000x128, .f32⟩
  | 76 => ⟨S640000x128, .f32⟩
  | 77 => ⟨S1x128, .f32⟩
  | 78 => ⟨S640000x128, .f32⟩
  | 79 => ⟨S640000x128, .f32⟩
  | 80 => ⟨S640000x128, .f32⟩
  | 81 => ⟨S640000x128, .f32⟩
  | 82 => ⟨S_, .f32⟩
  | 83 => ⟨S640000x128, .f32⟩
  | 84 => ⟨S640000x128, .f32⟩
  | 85 => ⟨S_, .f32⟩
  | 86 => ⟨S640000x128, .f32⟩
  | 87 => ⟨S640000x128, .f32⟩
  | 88 => ⟨S640000x128, .f32⟩
  | 89 => ⟨S640000x128, .f32⟩
  | 90 => ⟨S1x128, .f32⟩
  | 91 => ⟨S640000x128, .f32⟩
  | 92 => ⟨S640000x128, .f32⟩
  | 93 => ⟨S640000x128, .f32⟩
  | 94 => ⟨S640000x128, .f32⟩
  | 95 => ⟨S_, .f32⟩
  | 96 => ⟨S640000x128, .f32⟩
  | 97 => ⟨S640000x128, .f32⟩
  | 98 => ⟨S_, .f32⟩
  | 99 => ⟨S640000x128, .f32⟩
  | 100 => ⟨S640000x128, .f32⟩
  | 101 => ⟨S640000x128, .f32⟩
  | 102 => ⟨S640000x1, .f32⟩
  | 103 => ⟨S640000x3, .f32⟩
  | 104 => ⟨S640000x3, .f32⟩
  | 105 => ⟨S_, .f32⟩
  | 106 => ⟨S40000x128, .f32⟩
  | 107 => ⟨S640000x1, .i32⟩
  | 108 => ⟨S40000x128, .f32⟩
  | 109 => ⟨S_, .f32⟩
  | 110 => ⟨S640000x1, .f32⟩
  | 111 => ⟨S_, .f32⟩
  | 112 => ⟨S40000x1, .f32⟩
  | 113 => ⟨S640000x1, .i32⟩
  | 114 => ⟨S40000x1, .f32⟩
  | 115 => ⟨S_, .f32⟩
  | 116 => ⟨S40000x3, .f32⟩
  | 117 => ⟨S640000x1, .i32⟩
  | 118 => ⟨S40000x3, .f32⟩
  | 119 => ⟨S_, .f32⟩
  | 120 => ⟨S40000x1, .f32⟩
  | 121 => ⟨S40000x1, .f32⟩
  | 122 => ⟨S40000x3, .f32⟩
  | 123 => ⟨S40000x3, .f32⟩
  | 124 => ⟨S40000x256, .f32⟩
  | 125 => ⟨S40000x128, .f32⟩
  | 126 => ⟨S1x128, .f32⟩
  | 127 => ⟨S40000x128, .f32⟩
  | _ => ⟨S40000x128, .f32⟩

abbrev hbmTy0_1 (i : Nat) : BufTy := match i % 128 with
  | 0 => ⟨S40000x128, .f32⟩
  | 1 => ⟨S40000x128, .f32⟩
  | 2 => ⟨S40000x128, .f32⟩
  | 3 => ⟨S_, .f32⟩
  | 4 => ⟨S40000x128, .f32⟩
  | 5 => ⟨S40000x128, .f32⟩
  | 6 => ⟨S_, .f32⟩
  | 7 => ⟨S40000x128, .f32⟩
  | 8 => ⟨S40000x128, .f32⟩
  | 9 => ⟨S40000x128, .f32⟩
  | 10 => ⟨S40000x128, .f32⟩
  | 11 => ⟨S1x128, .f32⟩
  | 12 => ⟨S40000x128, .f32⟩
  | 13 => ⟨S40000x128, .f32⟩
  | 14 => ⟨S40000x3, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_call2_v0 : Ref sig .tc := ⟨.hbm, 93, rfl⟩
abbrev main_call2_v1 : Ref sig .tc := ⟨.hbm, 94, rfl⟩
abbrev main_call2_cst : Ref sig .tc := ⟨.hbm, 95, rfl⟩
abbrev main_call2_v2 : Ref sig .tc := ⟨.hbm, 96, rfl⟩
abbrev main_call2_v3 : Ref sig .tc := ⟨.hbm, 97, rfl⟩
abbrev main_call2_cst_0 : Ref sig .tc := ⟨.hbm, 98, rfl⟩
abbrev main_call2_v4 : Ref sig .tc := ⟨.hbm, 99, rfl⟩
abbrev main_call2_v5 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_8 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_9 : Ref sig .tc := ⟨.hbm, 109, rfl⟩
abbrev main_v59 : Ref sig .tc := ⟨.hbm, 110, rfl⟩
abbrev main_cst_10 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_cst_11 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_cst_12 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_call3_v0 : Ref sig .tc := ⟨.hbm, 129, rfl⟩
abbrev main_call3_v1 : Ref sig .tc := ⟨.hbm, 130, rfl⟩
abbrev main_call3_cst : Ref sig .tc := ⟨.hbm, 131, rfl⟩
abbrev main_call3_v2 : Ref sig .tc := ⟨.hbm, 132, rfl⟩
abbrev main_call3_v3 : Ref sig .tc := ⟨.hbm, 133, rfl⟩
abbrev main_call3_cst_0 : Ref sig .tc := ⟨.hbm, 134, rfl⟩
abbrev main_call3_v4 : Ref sig .tc := ⟨.hbm, 135, rfl⟩
abbrev main_call3_v5 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  reducesTo_S640000x3_S640000_d1 : S640000x3.ReducesTo [1] S640000
  h_S_ : 0 < S_.numel
  bcast_S_S640000x1 : S_.BroadcastsInDim S640000x1 (![] : Fin 0 → Fin S640000x1.rank)
  bcast_S640000x1_S640000x3_0_1 : S640000x1.BroadcastsInDim S640000x3 (![0, 1] : Fin 2 → Fin S640000x3.rank)
  concatenates_S640000x128_S640000x128_S640000x1_S640000x257_d1 : Shape.Concatenates [S640000x128, S640000x128, S640000x1] S640000x257 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S40000x128 : S_.BroadcastsInDim S40000x128 (![] : Fin 0 → Fin S40000x128.rank)
  bcast_S_S40000x1 : S_.BroadcastsInDim S40000x1 (![] : Fin 0 → Fin S40000x1.rank)
  bcast_S_S40000x3 : S_.BroadcastsInDim S40000x3 (![] : Fin 0 → Fin S40000x3.rank)
  bcast_S40000x1_S40000x3_0_1 : S40000x1.BroadcastsInDim S40000x3 (![0, 1] : Fin 2 → Fin S40000x3.rank)
  concatenates_S40000x128_S40000x128_S40000x256_d1 : Shape.Concatenates [S40000x128, S40000x128] S40000x256 1
  bcast_S1x128_S40000x128_0_1 : S1x128.BroadcastsInDim S40000x128 (![0, 1] : Fin 2 → Fin S40000x128.rank)
  gather_S40000x3_S640000x1_S640000x3_1_0_n_n_0_1_13_wf : GatherDims.WF S40000x3 S640000x1 S640000x3 [1] [0] [] [0] [] 1 ![1, 3]
  gather_S40000x128_S640000x1_S640000x128_1_0_n_n_0_1_1128_wf : GatherDims.WF S40000x128 S640000x1 S640000x128 [1] [0] [] [0] [] 1 ![1, 128]
  dot_S640000x257_S257x128_S640000x128_1_0_0_1_n_n_wf : DotDims.WF S640000x257 S257x128 S640000x128 [1] [0] [0] [1] [] []
  dot_S640000x128_S128x128_S640000x128_1_0_0_1_n_n_wf : DotDims.WF S640000x128 S128x128 S640000x128 [1] [0] [0] [1] [] []
  dot_S640000x128_S128x1_S640000x1_1_0_0_1_n_n_wf : DotDims.WF S640000x128 S128x1 S640000x1 [1] [0] [0] [1] [] []
  scatter_S40000x128_S640000x1_S640000x128_1_0_0_1_wf : ScatterDims.WF S40000x128 S640000x1 S640000x128 [1] [0] [0] 1
  scatter_S40000x1_S640000x1_S640000x1_1_0_0_1_wf : ScatterDims.WF S40000x1 S640000x1 S640000x1 [1] [0] [0] 1
  scatter_S40000x3_S640000x1_S640000x3_1_0_0_1_wf : ScatterDims.WF S40000x3 S640000x1 S640000x3 [1] [0] [0] 1
  dot_S40000x256_S256x128_S40000x128_1_0_0_1_n_n_wf : DotDims.WF S40000x256 S256x128 S40000x128 [1] [0] [0] [1] [] []
  dot_S40000x128_S128x128_S40000x128_1_0_0_1_n_n_wf : DotDims.WF S40000x128 S128x128 S40000x128 [1] [0] [0] [1] [] []

variable [Facts₀]

def gather_S40000x3_S640000x1_S640000x3_1_0_n_n_0_1_13 : GatherDims S40000x3 S640000x1 S640000x3 where
  offsetDims := [1]
  collapsedSliceDims := [0]
  operandBatchingDims := []
  startIndicesBatchingDims := []
  startIndexMap := [0]
  indexVectorDim := 1
  sliceSizes := ![1, 3]
  wf := gather_S40000x3_S640000x1_S640000x3_1_0_n_n_0_1_13_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x257_S257x128_S640000x128_1_0_0_1_n_n : DotDims S640000x257 S257x128 S640000x128 where
  lhsContracting := [1]
  rhsContracting := [0]
  lhsNonContracting := [0]
  rhsNonContracting := [1]
  lhsBatch := []
  rhsBatch := []
  wf := dot_S640000x257_S257x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000x1_S640000x1_S640000x1_1_0_0_1 : ScatterDims S40000x1 S640000x1 S640000x1 where
  updateWindowDims := [1]
  insertedWindowDims := [0]
  scatterDimsToOperandDims := [0]
  indexVectorDim := 1
  wf := scatter_S40000x1_S640000x1_S640000x1_1_0_0_1_wf
def scatter_S40000x3_S640000x1_S640000x3_1_0_0_1 : ScatterDims S40000x3 S640000x1 S640000x3 where
  updateWindowDims := [1]
  insertedWindowDims := [0]
  scatterDimsToOperandDims := [0]
  indexVectorDim := 1
  wf := scatter_S40000x3_S640000x1_S640000x3_1_0_0_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.RunAll.lean ====
/-
  The idealized kernel program, run: every weakly fair execution of its @main terminates without a fault, and every
  buffer that outlives the two kernel launches ends at the contents the fold of the program's five segments gives it —
  the host operations before the edge kernel, the edge kernel's write-backs, the host operations between the two
  kernels (the two segment sums and the division by the in-degree), the node kernel's write-backs, and the final
  addition of the mean coordinate message.
-/
import proofs.«117037_j42511586296497_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that is not a staging buffer ends at the last segment boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelIdeal.RunAll

end
-- ==== Proof.HostChain.lean ====
/-
  The host side of the idealized kernel program, read boundary by boundary.

  Before the edge kernel the host gathers the end nodes' features and coordinates along the edges and cuts the first
  layer's [257,128] weight matrix into its three blocks; between the two kernels it sums the messages into their
  destination nodes, divides the coordinate sums by the in-degree (at least one), and cuts the node network's
  [256,128] matrix into its two blocks; after the node kernel it adds the mean coordinate message to the coordinates.
  Each buffer a kernel's window stages, and each result, is named here as the term of the program's arguments (and of
  the edge kernel's two outputs) that those host operations compute — the same operations, in the same order, as the
  reference's own: the gathers, the segment sums and the final addition are stated against the reference's stages.
  A change of float format is the identity on the extended reals.
-/
import proofs.«117037_j42511586296497_1_alg».proof.Proof.Gen.KernelIdeal.Frame
import proofs.«117037_j42511586296497_1_alg».proof.Proof.Gen.ReferenceIdeal.Read
import Idealize.ShloMosaic.Lib.StableHlo.Run
import Idealize.ShloMosaic.Lib.Tactic

set_option maxRecDepth 16384

noncomputable section

namespace Cert.KernelIdeal.Chain

open Cert.KernelIdeal Cert.KernelIdeal.Gen
open Idealize.ShloMosaic Idealize.ShloMosaic.TcCoe Idealize.ShloMosaic.Tactic Idealize.SL.Sem Idealize.ShloMosaic.StableHlo

/-- The program's arguments on core c. -/
abbrev a0 (m : (ℓ : Loc nD τ sig) → Buf (Elt Ideal) ℓ) (c : Dev nD) : Buf (Elt Ideal) ((c : Thread nD τ).loc main_arg0) := m ((c : Thread nD τ).loc main_arg0)
abbrev a1 (m : (ℓ : Loc nD τ sig) → Buf (Elt Ideal) ℓ) (c : Dev nD) : Buf (Elt Ideal) ((c : Thread nD τ).loc main_arg1) := m ((c : Thread nD τ).loc main_arg1)
abbrev a2 (m : (ℓ : Loc nD τ sig) → Buf (Elt Ideal) ℓ) (c : Dev nD) : Buf (Elt Ideal) ((c : Thread nD τ).loc main_arg2) := m ((c : Thread nD τ).loc main_arg2)
abbrev a3 (m : (ℓ : Loc nD τ sig) → Buf (Elt Ideal) ℓ) (c : Dev nD) : Buf (Elt Ideal) ((c : Thread nD τ).loc main_arg3) := m ((c : Thread nD τ).loc main_arg3)
abbrev a4 (m : (ℓ : Loc nD τ sig) → Buf (Elt Ideal) ℓ) (c : Dev nD) : Buf (Elt Ideal) ((c : Thread nD τ).loc main_arg4) := m ((c : Thread nD τ).loc main_arg4)
abbrev a5 (m : (ℓ : Loc nD τ sig) → Buf (Elt Ideal) ℓ) (c : Dev nD) : Buf (Elt Ideal) ((c : Thread nD τ).loc main_arg5) := m ((c : Thread nD τ).loc main_arg5)
abbrev a6 (m : (ℓ : Loc nD τ sig) → Buf (Elt Ideal) ℓ) (c : Dev nD) : Buf (Elt Ideal) ((c : Thread nD τ).loc main_arg6) := m ((c : Thread nD τ).loc main_arg6)
abbrev a7 (m : (ℓ : Loc nD τ sig) → Buf (Elt Ideal) ℓ) (c : Dev nD) : Buf (Elt Ideal) ((c : Thread nD τ).loc main_arg7) := m ((c : Thread nD τ).loc main_arg7)
abbrev a8 (m : (ℓ : Loc nD τ sig) → Buf (Elt Ideal) ℓ) (c : Dev nD) : Buf (Elt Ideal) ((c : Thread nD τ).loc main_arg8) := m ((c : Thread nD τ).loc main_arg8)
abbrev a9 (m : (ℓ : Loc nD τ sig) → Buf (Elt Ideal) ℓ) (c : Dev nD) : Buf (Elt Ideal) ((c : Thread nD τ).loc main_arg9) := m ((c : Thread nD τ).loc main_arg9)
abbrev a10 (m : (ℓ : Loc nD τ sig) → Buf (Elt Ideal) ℓ) (c : Dev nD) : Buf (Elt Ideal) ((c : Thread nD τ).loc main_arg10) := m ((c : Thread nD τ).loc main_arg10)
abbrev a11 (m : (ℓ : Loc nD τ sig) → Buf (Elt Ideal) ℓ) (c : Dev nD) : Buf (Elt Ideal) ((c : Thread nD τ).loc main_arg11) := m ((c : Thread nD τ).loc main_arg11)
abbrev a12 (m : (ℓ : Loc nD τ sig) → Buf (Elt Ideal) ℓ) (c : Dev nD) : Buf (Elt Ideal) ((c : Thread nD τ).loc main_arg12) := m ((c : Thread nD τ).loc main_arg12)
abbrev a13 (m : (ℓ : Loc nD τ sig) → Buf (Elt Ideal) ℓ) (c : Dev nD) : Buf (Elt Ideal) ((c : Thread nD τ).loc main_arg13) := m ((c : Thread nD τ).loc main_arg13)
abbrev a14 (m : (ℓ : Loc nD τ sig) → Buf (Elt Ideal) ℓ) (c : Dev nD) : Buf (Elt Ideal) ((c : Thread nD τ).loc main_arg14) := m ((c : Thread nD τ).loc main_arg14)

variable (m : (ℓ : Loc nD τ sig) → Buf (Elt Ideal) ℓ) (ρ : Dev nD → PrngReg) (c : Dev nD)

/-- No operation of a host stretch writes the buffer: its contents pass through the stretch. -/
macro "passes_through " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Before the edge kernel -/

/-- The source nodes' features along the edges. -/
theorem entry0_src_feat : (V1 m ρ c main_v7 : S640000x128.Idx → EReal) = Cert.ReferenceIdeal.Read.val_main_v29 (F := Ideal) (a0 m c) (a2 m c) := by
  show StableHlo.after hostOps0 (W0 m ρ c) (Proc.devRef .tc main_v7) = _
  simp only [hostOps0]
  after_results_simp
  rfl

/-- The destination nodes' features along the edges. -/
theorem entry0_dst_feat : (V1 m ρ c main_v15 : S640000x128.Idx → EReal) = Cert.ReferenceIdeal.Read.val_main_v36 (F := Ideal) (a0 m c) (a3 m c) := by
  show StableHlo.after hostOps0 (W0 m ρ c) (Proc.devRef .tc main_v15) = _
  simp only [hostOps0]
  after_results_simp
  rfl

/-- The coordinate differences along the edges. -/
theorem entry0_diff : (V1 m ρ c main_v30 : S640000x3.Idx → EReal) = Cert.ReferenceIdeal.Read.val_main_v14 (F := Ideal) (a1 m c) (a2 m c) (a3 m c) := by
  show StableHlo.after hostOps0 (W0 m ρ c) (Proc.devRef .tc main_v30) = _
  simp only [hostOps0]
  after_results_simp
  rfl

/-- Rows 0–127 of the first layer's matrix. -/
theorem entry0_wa : (V1 m ρ c main_v32 : S128x128.Idx → EReal)
    = extractStridedSlice S128x128 ![0, 0] ((a4 m c) : S257x128.Idx → EReal) slices_S257x128_S128x128_0_0 := by
  show StableHlo.after hostOps0 (W0 m ρ c) (Proc.devRef .tc main_v32) = _
  simp only [hostOps0]
  after_results_simp
  rfl

/-- Rows 128–255 of the first layer's matrix. -/
theorem entry0_wb : (V1 m ρ c main_v34 : S128x128.Idx → EReal)
    = extractStridedSlice S128x128 ![128, 0] ((a4 m c) : S257x128.Idx → EReal) slices_S257x128_S128x128_128_0 := by
  show StableHlo.after hostOps0 (W0 m ρ c) (Proc.devRef .tc main_v34) = _
  simp only [hostOps0]
  after_results_simp
  rfl

/-- Row 256 of the first layer's matrix. -/
theorem entry0_wd : (V1 m ρ c main_v35 : S1x128.Idx → EReal)
    = extractStridedSlice S1x128 ![256, 0] ((a4 m c) : S257x128.Idx → EReal) slices_S257x128_S1x128_256_0 := by
  show StableHlo.after hostOps0 (W0 m ρ c) (Proc.devRef .tc main_v35) = _
  simp only [hostOps0]
  after_results_simp

theorem entry0_w2 : (V1 m ρ c main_v36 : S128x128.Idx → EReal) = (a6 m c) := by
  show StableHlo.after hostOps0 (W0 m ρ c) (Proc.devRef .tc main_v36) = _
  simp only [hostOps0]
  after_results_simp
  rfl

theorem entry0_wc1 : (V1 m ρ c main_v37 : S128x128.Idx → EReal) = (a12 m c) := by
  show StableHlo.after hostOps0 (W0 m ρ c) (Proc.devRef .tc main_v37) = _
  simp only [hostOps0]
  after_results_simp
  rfl

theorem entry0_wc2 : (V1 m ρ c main_v38 : S128x1.Idx → EReal) = (a14 m c) := by
  show StableHlo.after hostOps0 (W0 m ρ c) (Proc.devRef .tc main_v38) = _
  simp only [hostOps0]
  after_results_simp
  rfl

theorem entry0_b1 : V1 m ρ c main_arg5 = (a5 m c) := by
  show StableHlo.after hostOps0 (W0 m ρ c) (Proc.devRef .tc main_arg5) = W0 m ρ c (Proc.devRef .tc main_arg5)
  passes_through hostOps0

theorem entry0_b2 : V1 m ρ c main_arg7 = (a7 m c) := by
  show StableHlo.after hostOps0 (W0 m ρ c) (Proc.devRef .tc main_arg7) = W0 m ρ c (Proc.devRef .tc main_arg7)
  passes_through hostOps0

theorem entry0_bc1 : V1 m ρ c main_arg13 = (a13 m c) := by
  show StableHlo.after hostOps0 (W0 m ρ c) (Proc.devRef .tc main_arg13) = W0 m ρ c (Proc.devRef .tc main_arg13)
  passes_through hostOps0

/-! ## Arguments the edge kernel does not stage reach the node kernel's entry unchanged -/

theorem mid_dst : W2 m ρ c (Proc.devRef .tc main_arg3) = (a3 m c) :=
  calc W2 m ρ c (Proc.devRef .tc main_arg3)
    _ = W1 m ρ c (Proc.devRef .tc main_arg3) := W2_of_ne m ρ c main_arg3 (by decide)
    _ = W0 m ρ c (Proc.devRef .tc main_arg3) := by passes_through hostOps0
    _ = (a3 m c) := rfl

theorem mid_wn1 : W2 m ρ c (Proc.devRef .tc main_arg8) = (a8 m c) :=
  calc W2 m ρ c (Proc.devRef .tc main_arg8)
    _ = W1 m ρ c (Proc.devRef .tc main_arg8) := W2_of_ne m ρ c main_arg8 (by decide)
    _ = W0 m ρ c (Proc.devRef .tc main_arg8) := by passes_through hostOps0
    _ = (a8 m c) := rfl

theorem mid_wn2 : W2 m ρ c (Proc.devRef .tc main_arg10) = (a10 m c) :=
  calc W2 m ρ c (Proc.devRef .tc main_arg10)
    _ = W1 m ρ c (Proc.devRef .tc main_arg10) := W2_of_ne m ρ c main_arg10 (by decide)
    _ = W0 m ρ c (Proc.devRef .tc main_arg10) := by passes_through hostOps0
    _ = (a10 m c) := rfl

/-- The edge kernel's first output array as the host finds it afterwards. -/
theorem mid_features : W2 m ρ c (Proc.devRef .tc main_v39_0) = (dat0 (V1 m ρ) c).arrAt 12 cfg0.N := W2_arr m ρ c 12

/-- The edge kernel's second output array as the host finds it afterwards. -/
theorem mid_coords : W2 m ρ c (Proc.devRef .tc main_v39_1) = (dat0 (V1 m ρ) c).arrAt 13 cfg0.N := W2_arr m ρ c 13

/-! ## At the node kernel's entry -/

theorem entry1_feat : V3 m ρ c main_arg0 = (a0 m c) :=
  calc W3 m ρ c (Proc.devRef .tc main_arg0)
    _ = W2 m ρ c (Proc.devRef .tc main_arg0) := by passes_through hostOps1
    _ = W1 m ρ c (Proc.devRef .tc main_arg0) := W2_of_ne m ρ c main_arg0 (by decide)
    _ = W0 m ρ c (Proc.devRef .tc main_arg0) := by passes_through hostOps0
    _ = (a0 m c) := rfl

theorem entry1_b1 : V3 m ρ c main_arg9 = (a9 m c) :=
  calc W3 m ρ c (Proc.devRef .tc main_arg9)
    _ = W2 m ρ c (Proc.devRef .tc main_arg9) := by passes_through hostOps1
    _ = W1 m ρ c (Proc.devRef .tc main_arg9) := W2_of_ne m ρ c main_arg9 (by decide)
    _ = W0 m ρ c (Proc.devRef .tc main_arg9) := by passes_through hostOps0
    _ = (a9 m c) := rfl

theorem entry1_b2 : V3 m ρ c main_arg11 = (a11 m c) :=
  calc W3 m ρ c (Proc.devRef .tc main_arg11)
    _ = W2 m ρ c (Proc.devRef .tc main_arg11) := by passes_through hostOps1
    _ = W1 m ρ c (Proc.devRef .tc main_arg11) := W2_of_ne m ρ c main_arg11 (by decide)
    _ = W0 m ρ c (Proc.devRef .tc main_arg11) := by passes_through hostOps0
    _ = (a11 m c) := rfl

/-- The feature messages summed into their destination nodes: the reference's own segment sum, of whatever feature
    messages the edge kernel left. -/
theorem entry1_messages (MH : S640000x128.Idx → EReal) (h : (W2 m ρ c (Proc.devRef .tc main_v39_0) : S640000x128.Idx → EReal) = MH) :
    (V3 m ρ c main_v42 : S40000x128.Idx → EReal)
      = Host.scatterAdd (F := Ideal) (φ := .f32) Cert.ReferenceIdeal.scatter_S40000x128_S640000x1_S640000x128_1_0_0_1
          (Cert.ReferenceIdeal.Read.val_main_v56 (F := Ideal)) (Cert.ReferenceIdeal.Read.val_main_v57 (F := Ideal) (a3 m c)) MH := by
  show StableHlo.after hostOps1 (W2 m ρ c) (Proc.devRef .tc main_v42) = _
  simp only [hostOps1]
  after_results_simp
  rw [h, mid_dst]
  rfl

/-- Rows 0–127 of the node network's first matrix. -/
theorem entry1_wn : (V3 m ρ c main_v55 : S128x128.Idx → EReal)
    = extractStridedSlice S128x128 ![0, 0] ((a8 m c) : S256x128.Idx → EReal) slices_S256x128_S128x128_0_0 := by
  show StableHlo.after hostOps1 (W2 m ρ c) (Proc.devRef .tc main_v55) = _
  simp only [hostOps1]
  after_results_simp
  rw [mid_wn1]
  rfl

/-- Rows 128–255 of the node network's first matrix. -/
theorem entry1_wh : (V3 m ρ c main_v57 : S128x128.Idx → EReal)
    = extractStridedSlice S128x128 ![128, 0] ((a8 m c) : S256x128.Idx → EReal) slices_S256x128_S128x128_128_0 := by
  show StableHlo.after hostOps1 (W2 m ρ c) (Proc.devRef .tc main_v57) = _
  simp only [hostOps1]
  after_results_simp
  rw [mid_wn1]
  rfl

theorem entry1_w2 : (V3 m ρ c main_v58 : S128x128.Idx → EReal) = (a10 m c) := by
  show StableHlo.after hostOps1 (W2 m ρ c) (Proc.devRef .tc main_v58) = _
  simp only [hostOps1]
  after_results_simp
  rw [mid_wn2]
  rfl

/-! ## The two results -/

/-- The first result is the node kernel's output array. -/
theorem exit_features : W5 m ρ c (Proc.devRef .tc main_v59) = (dat1 (V3 m ρ) c).arrAt 7 cfg1.N :=
  calc W5 m ρ c (Proc.devRef .tc main_v59)
    _ = W4 m ρ c (Proc.devRef .tc main_v59) := by passes_through hostOps2
    _ = (dat1 (V3 m ρ) c).arrAt 7 cfg1.N := W4_arr m ρ c 7

theorem late_coord : W4 m ρ c (Proc.devRef .tc main_arg1) = (a1 m c) :=
  calc W4 m ρ c (Proc.devRef .tc main_arg1)
    _ = W3 m ρ c (Proc.devRef .tc main_arg1) := W4_of_ne m ρ c main_arg1 (by decide)
    _ = W2 m ρ c (Proc.devRef .tc main_arg1) := by passes_through hostOps1
    _ = W1 m ρ c (Proc.devRef .tc main_arg1) := W2_of_ne m ρ c main_arg1 (by decide)
    _ = W0 m ρ c (Proc.devRef .tc main_arg1) := by passes_through hostOps0
    _ = (a1 m c) := rfl

/-- The mean coordinate message of every node: the reference's own segment sums and quotient, of whatever coordinate
    messages the edge kernel left. -/
theorem mean_message (MX : S640000x3.Idx → EReal) (h : (W2 m ρ c (Proc.devRef .tc main_v39_1) : S640000x3.Idx → EReal) = MX) :
    (W4 m ρ c (Proc.devRef .tc main_v53) : S40000x3.Idx → EReal)
      = Host.divf (F := Ideal) (φ := .f32)
          (Host.scatterAdd (F := Ideal) (φ := .f32) Cert.ReferenceIdeal.scatter_S40000x3_S640000x1_S640000x3_1_0_0_1
            (Cert.ReferenceIdeal.Read.val_main_v63 (F := Ideal)) (Cert.ReferenceIdeal.Read.val_main_v64 (F := Ideal) (a3 m c)) MX)
          (Cert.ReferenceIdeal.Read.val_main_v68 (F := Ideal) (a3 m c)) := by
  refine (W4_of_ne m ρ c main_v53 (by decide)).trans ?_
  show StableHlo.after hostOps1 (W2 m ρ c) (Proc.devRef .tc main_v53) = _
  simp only [hostOps1]
  after_results_simp
  rw [h, mid_dst]
  rfl

/-- The second result: the coordinates plus the mean coordinate message. -/
theorem exit_coords (MX : S640000x3.Idx → EReal) (h : (W2 m ρ c (Proc.devRef .tc main_v39_1) : S640000x3.Idx → EReal) = MX) :
    (W5 m ρ c (Proc.devRef .tc main_v60) : S40000x3.Idx → EReal)
      = addf (F := Ideal) (φ := .f32) ((a1 m c) : S40000x3.Idx → EReal)
          (Host.divf (F := Ideal) (φ := .f32)
            (Host.scatterAdd (F := Ideal) (φ := .f32) Cert.ReferenceIdeal.scatter_S40000x3_S640000x1_S640000x3_1_0_0_1
              (Cert.ReferenceIdeal.Read.val_main_v63 (F := Ideal)) (Cert.ReferenceIdeal.Read.val_main_v64 (F := Ideal) (a3 m c)) MX)
            (Cert.ReferenceIdeal.Read.val_main_v68 (F := Ideal) (a3 m c))) := by
  show StableHlo.after hostOps2 (W4 m ρ c) (Proc.devRef .tc main_v60) = _
  simp only [hostOps2]
  after_results_simp
  rw [late_coord, mean_message m ρ c MX h]

end Cert.KernelIdeal.Chain

end
-- ==== Proof.Spec.lean ====
/-
  One layer of an E(n)-equivariant message-passing network, written entry by entry on the extended reals.

  An edge carries the features a, b of its two end nodes (128 numbers each) and the difference d of their coordinates
  (3 numbers).  With r = |d| = sqrt (d·d) its message is
      h  = silu (silu ((a·Wa + b·Wb + r·wd) + b1) · W2 + b2)                    (128 numbers)
      x  = (silu (h · Wc1 + bc1) · wc2) · d / (r + ε)                            (3 numbers)
  where silu t = t · 1/(1 + e^(-t)).  A node with features x and summed incoming messages s is updated to
      silu ((x·Wn + s·Wh) + bn1) · Wn2 + bn2.
  The three blocks Wa, Wb, wd are rows 0–127, 128–255 and 256 of one [257,128] matrix, and Wn, Wh are rows 0–127 and
  128–255 of one [256,128] matrix: a product with the stacked matrix of a row laid out as (a, b, r) (resp. (x, s)) is
  the sum of the block products (`sum_three_blocks`, `sum_two_blocks`), in any additive commutative monoid.
-/
import Idealize.ShloMosaic.PureOps.Ideal
import Idealize.ShloMosaic.Lib.ValueIdx

noncomputable section

namespace Cert.Egnn

open Idealize.ShloMosaic Idealize.ShloMosaic.ValueIdx
open scoped BigOperators

/-- silu t = t · σ(t), with σ(t) = 1 / (1 + e^(-t)). -/
def silu (t : EReal) : EReal := t * Ideal.logistic t

/-- A dense layer's entry j: x · W(·, j) + b j. -/
def dense {k n : ℕ} (x : Fin k → EReal) (w : Fin k → Fin n → EReal) (b : Fin n → EReal) (j : Fin n) : EReal :=
  (∑ i, x i * w i j) + b j

/-- The Euclidean length of a 3-vector. -/
def norm3 (d : Fin 3 → EReal) : EReal := Ideal.sqrt (∑ q, d q * d q)

/-- The weights of the edge stage. -/
structure EdgeW where
  wa : Fin 128 → Fin 128 → EReal
  wb : Fin 128 → Fin 128 → EReal
  wd : Fin 128 → EReal
  b1 : Fin 128 → EReal
  w2 : Fin 128 → Fin 128 → EReal
  b2 : Fin 128 → EReal
  wc1 : Fin 128 → Fin 128 → EReal
  bc1 : Fin 128 → EReal
  wc2 : Fin 128 → EReal

/-- The first hidden layer of the edge network at entry k. -/
def hidden1 (W : EdgeW) (a b : Fin 128 → EReal) (d : Fin 3 → EReal) (k : Fin 128) : EReal :=
  silu ((((∑ i, a i * W.wa i k) + (∑ i, b i * W.wb i k)) + norm3 d * W.wd k) + W.b1 k)

/-- The feature message of an edge at entry j. -/
def msgH (W : EdgeW) (a b : Fin 128 → EReal) (d : Fin 3 → EReal) (j : Fin 128) : EReal :=
  silu (dense (hidden1 W a b d) W.w2 W.b2 j)

/-- The scalar by which an edge's unit direction is weighted. -/
def coef (W : EdgeW) (a b : Fin 128 → EReal) (d : Fin 3 → EReal) : EReal :=
  ∑ k, silu (dense (msgH W a b d) W.wc1 W.bc1 k) * W.wc2 k

/-- The coordinate message of an edge at entry q. -/
def msgX (W : EdgeW) (ε : EReal) (a b : Fin 128 → EReal) (d : Fin 3 → EReal) (q : Fin 3) : EReal :=
  coef W a b d * Ideal.div (d q) (norm3 d + ε)

/-- The weights of the node stage. -/
structure NodeW where
  wn : Fin 128 → Fin 128 → EReal
  wh : Fin 128 → Fin 128 → EReal
  b1 : Fin 128 → EReal
  w2 : Fin 128 → Fin 128 → EReal
  b2 : Fin 128 → EReal

/-- The updated feature of a node at entry j, from its own features x and its summed messages s. -/
def nodeOut (W : NodeW) (x s : Fin 128 → EReal) (j : Fin 128) : EReal :=
  dense (fun k => silu (((∑ i, x i * W.wn i k) + (∑ i, s i * W.wh i k)) + W.b1 k)) W.w2 W.b2 j

/-! ## Arrays -/

/-- Row e of a matrix. -/
def rowOf {n c : ℕ} (A : (⟨2, ![n, c]⟩ : Shape).Idx → EReal) (e : Fin n) : Fin c → EReal := fun k => A (ix2 e k)

/-- A [c,d] matrix as a function of its two coordinates. -/
def mat {c d : ℕ} (A : (⟨2, ![c, d]⟩ : Shape).Idx → EReal) : Fin c → Fin d → EReal := fun i j => A (ix2 i j)

/-- A [c] vector as a function of its coordinate. -/
def vec {c : ℕ} (A : (⟨1, ![c]⟩ : Shape).Idx → EReal) : Fin c → EReal := fun j => A (ix1 j)

/-- Rows o … o+127 of a taller matrix. -/
def rowsFrom {r : ℕ} (o : ℕ) (ho : o + 128 ≤ r) (A : (⟨2, ![r, 128]⟩ : Shape).Idx → EReal) : Fin 128 → Fin 128 → EReal :=
  fun i j => A (ix2 (⟨o + i.val, by have := i.isLt; omega⟩ : Fin r) j)

/-- The edge weights cut out of the program's arguments: the [257,128] first-layer matrix in its three blocks. -/
def edgeWOf (We1 : (⟨2, ![257, 128]⟩ : Shape).Idx → EReal) (be1 : (⟨1, ![128]⟩ : Shape).Idx → EReal)
    (We2 : (⟨2, ![128, 128]⟩ : Shape).Idx → EReal) (be2 : (⟨1, ![128]⟩ : Shape).Idx → EReal)
    (Wc1 : (⟨2, ![128, 128]⟩ : Shape).Idx → EReal) (bc1 : (⟨1, ![128]⟩ : Shape).Idx → EReal)
    (Wc2 : (⟨2, ![128, 1]⟩ : Shape).Idx → EReal) : EdgeW where
  wa := rowsFrom 0 (by omega) We1
  wb := rowsFrom 128 (by omega) We1
  wd := fun j => We1 (ix2 (⟨256, by omega⟩ : Fin 257) j)
  b1 := vec be1
  w2 := mat We2
  b2 := vec be2
  wc1 := mat Wc1
  bc1 := vec bc1
  wc2 := fun k => Wc2 (ix2 k (0 : Fin 1))

/-- The node weights cut out of the program's arguments: the [256,128] first-layer matrix in its two blocks. -/
def nodeWOf (Wn1 : (⟨2, ![256, 128]⟩ : Shape).Idx → EReal) (bn1 : (⟨1, ![128]⟩ : Shape).Idx → EReal)
    (Wn2 : (⟨2, ![128, 128]⟩ : Shape).Idx → EReal) (bn2 : (⟨1, ![128]⟩ : Shape).Idx → EReal) : NodeW where
  wn := rowsFrom 0 (by omega) Wn1
  wh := rowsFrom 128 (by omega) Wn1
  b1 := vec bn1
  w2 := mat Wn2
  b2 := vec bn2

/-- The feature messages of all edges: entry (e, j) from row e of the gathered features and coordinate differences. -/
def msgHArr {n : ℕ} (W : EdgeW) (NS ND : (⟨2, ![n, 128]⟩ : Shape).Idx → EReal) (DX : (⟨2, ![n, 3]⟩ : Shape).Idx → EReal) :
    (⟨2, ![n, 128]⟩ : Shape).Idx → EReal :=
  fun i => msgH W (rowOf NS (i 0)) (rowOf ND (i 0)) (rowOf DX (i 0)) (i 1)

/-- The coordinate messages of all edges. -/
def msgXArr {n : ℕ} (W : EdgeW) (ε : EReal) (NS ND : (⟨2, ![n, 128]⟩ : Shape).Idx → EReal)
    (DX : (⟨2, ![n, 3]⟩ : Shape).Idx → EReal) : (⟨2, ![n, 3]⟩ : Shape).Idx → EReal :=
  fun i => msgX W ε (rowOf NS (i 0)) (rowOf ND (i 0)) (rowOf DX (i 0)) (i 1)

/-- The updated features of all nodes. -/
def nodeOutArr {n : ℕ} (W : NodeW) (X S : (⟨2, ![n, 128]⟩ : Shape).Idx → EReal) : (⟨2, ![n, 128]⟩ : Shape).Idx → EReal :=
  fun i => nodeOut W (rowOf X (i 0)) (rowOf S (i 0)) (i 1)

theorem msgHArr_apply {n : ℕ} (W : EdgeW) (NS ND : (⟨2, ![n, 128]⟩ : Shape).Idx → EReal)
    (DX : (⟨2, ![n, 3]⟩ : Shape).Idx → EReal) (e : Fin n) (j : Fin 128) :
    msgHArr W NS ND DX (ix2 e j) = msgH W (rowOf NS e) (rowOf ND e) (rowOf DX e) j := rfl

theorem msgXArr_apply {n : ℕ} (W : EdgeW) (ε : EReal) (NS ND : (⟨2, ![n, 128]⟩ : Shape).Idx → EReal)
    (DX : (⟨2, ![n, 3]⟩ : Shape).Idx → EReal) (e : Fin n) (q : Fin 3) :
    msgXArr W ε NS ND DX (ix2 e q) = msgX W ε (rowOf NS e) (rowOf ND e) (rowOf DX e) q := rfl

theorem nodeOutArr_apply {n : ℕ} (W : NodeW) (X S : (⟨2, ![n, 128]⟩ : Shape).Idx → EReal) (e : Fin n) (j : Fin 128) :
    nodeOutArr W X S (ix2 e j) = nodeOut W (rowOf X e) (rowOf S e) j := rfl

/-! ## A product with a stacked matrix is the sum of the block products -/

/-- A sum over 257 = 128 + 128 + 1 terms in its three blocks. -/
theorem sum_three_blocks {M : Type} [AddCommMonoid M] (f : Fin 257 → M) :
    ∑ k : Fin 257, f k
      = ((∑ i : Fin 128, f ⟨i.val, by have := i.isLt; omega⟩) + (∑ i : Fin 128, f ⟨128 + i.val, by have := i.isLt; omega⟩))
        + f ⟨256, by omega⟩ := by
  rw [Fin.sum_univ_castSucc (n := 256) f, Fin.sum_univ_add (a := 128) (b := 128) (fun i => f (Fin.castSucc i))]
  rfl

/-- A sum over 256 = 128 + 128 terms in its two blocks. -/
theorem sum_two_blocks {M : Type} [AddCommMonoid M] (f : Fin 256 → M) :
    ∑ k : Fin 256, f k
      = (∑ i : Fin 128, f ⟨i.val, by have := i.isLt; omega⟩) + (∑ i : Fin 128, f ⟨128 + i.val, by have := i.isLt; omega⟩) := by
  rw [Fin.sum_univ_add (a := 128) (b := 128) f]
  rfl

end Cert.Egnn

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibRowwise.lean ====
/-
  Row-wise readings of a matrix `[n, c]`, at an entry given by its two coordinates.

  A row vector `[c]` laid under every row of an `[n, c]` matrix (cast to `[1, c]`, then broadcast down the rows) reads, at
  `(p, j)`, its entry `j`; a column `[n]` laid beside every column (cast to `[n, 1]`, then broadcast along the rows) reads,
  at `(p, j)`, its entry `p`; column `o` of an `[n, b]` matrix cut out as `[n, 1]` and broadcast along the rows reads, at
  `(p, j)`, the entry `(p, o)`. The host's reduce of an `[a, b]` matrix over its second axis by a commutative,
  associative body is, at row `r`, the fold of the body from the initial value over the entries `(r, k)`; its float sum
  is the initial value plus the row's sum.
  Library imports only.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowwise

open Idealize.ShloMosaic Idealize.ShloMosaic.ValueIdx
open scoped BigOperators

variable {α : Type}

/-- A `[c]` array cast to `[1, c]` and broadcast down `n` rows reads, at `(p, j)`, the operand at `j`. -/
theorem rowUnder_apply {n c : ℕ} (b : (⟨1, ![c]⟩ : Shape).Idx → α) (hc : (⟨1, ![c]⟩ : Shape).ShapeCasts ⟨2, ![1, c]⟩)
    (hb : (⟨2, ![1, c]⟩ : Shape).Broadcasts ⟨2, ![n, c]⟩) (p : Fin n) (j : Fin c) :
    broadcastTo ⟨2, ![n, c]⟩ (shapeCast ⟨2, ![1, c]⟩ b hc) hb (ix2 p j) = b (ix1 j) := by
  refine (broadcastTo_apply (shapeCast ⟨2, ![1, c]⟩ b hc) hb (ix2 p j) (ix2 (0 : Fin 1) j) fun ax => ?_).trans ?_
  · match ax with
    | ⟨0, _⟩ => rfl
    | ⟨1, _⟩ =>
      show j.val = if c = 1 then 0 else j.val
      split
      · have := j.isLt; omega
      · rfl
  · exact shapeCast_apply b hc _ _ (by
      rw [Shape.rowMajor_val_two, Shape.rowMajor_val_one]
      show j.val = 0 * c + j.val
      omega)

/-- An `[n]` array cast to `[n, 1]` and broadcast along `c` columns reads, at `(p, j)`, the operand at `p`. -/
theorem columnBeside_apply {n c : ℕ} (v : (⟨1, ![n]⟩ : Shape).Idx → α) (hc : (⟨1, ![n]⟩ : Shape).ShapeCasts ⟨2, ![n, 1]⟩)
    (hb : (⟨2, ![n, 1]⟩ : Shape).Broadcasts ⟨2, ![n, c]⟩) (p : Fin n) (j : Fin c) :
    broadcastTo ⟨2, ![n, c]⟩ (shapeCast ⟨2, ![n, 1]⟩ v hc) hb (ix2 p j) = v (ix1 p) := by
  refine (broadcastTo_apply (shapeCast ⟨2, ![n, 1]⟩ v hc) hb (ix2 p j) (ix2 p (0 : Fin 1)) fun ax => ?_).trans ?_
  · match ax with
    | ⟨0, _⟩ =>
      show p.val = if n = 1 then 0 else p.val
      split
      · have := p.isLt; omega
      · rfl
    | ⟨1, _⟩ => rfl
  · exact shapeCast_apply v hc _ _ (by
      rw [Shape.rowMajor_val_two, Shape.rowMajor_val_one]
      show p.val = p.val * 1 + 0
      omega)

/-- Column `o` of an `[n, b]` matrix, cut out as `[n, 1]` and broadcast along `c` columns, reads at `(p, j)` the entry
    `(p, o)`. -/
theorem columnOf_apply {n b c : ℕ} (g : (⟨2, ![n, b]⟩ : Shape).Idx → α) (o : ℕ) (ho : o < b)
    (hs : (⟨2, ![n, b]⟩ : Shape).Slices ![0, o] ⟨2, ![n, 1]⟩)
    (hb : (⟨2, ![n, 1]⟩ : Shape).Broadcasts ⟨2, ![n, c]⟩) (p : Fin n) (j : Fin c) :
    broadcastTo ⟨2, ![n, c]⟩ (extractStridedSlice ⟨2, ![n, 1]⟩ ![0, o] g hs) hb (ix2 p j) = g (ix2 p (⟨o, ho⟩ : Fin b)) := by
  refine (broadcastTo_apply (extractStridedSlice ⟨2, ![n, 1]⟩ ![0, o] g hs) hb (ix2 p j) (ix2 p (0 : Fin 1)) fun ax => ?_).trans ?_
  · match ax with
    | ⟨0, _⟩ =>
      show p.val = if n = 1 then 0 else p.val
      split
      · have := p.isLt; omega
      · rfl
    | ⟨1, _⟩ => rfl
  · exact extractStridedSlice_apply ![0, o] g hs (ix2 p (0 : Fin 1)) (ix2 p (⟨o, ho⟩ : Fin b)) fun ax => by
      match ax with
      | ⟨0, _⟩ => show p.val = 0 + p.val; omega
      | ⟨1, _⟩ => show o = o + 0; omega

/-- Row `r` with the second coordinate `k` put back is the entry `(r, k)`. -/
theorem lift_second {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- The host's reduce of a matrix over its second axis by a commutative, associative body, at row `r`: the fold from the
    initial value over the row's entries. -/
theorem hostReduce_row {a b : ℕ} {u : Shape} (f : α → α → α) [Std.Commutative f] [Std.Associative f]
    (x : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce f x init h' hu (ix1 r)
      = (Finset.univ : Finset (Fin b)).fold f (init (Shape.Idx.first hu)) fun k => x (ix2 r k) :=
  (Host.reduce_eq_fold_single f x init h' h hu (ix1 r)).trans
    (congrArg (fun g => Finset.fold f (init (Shape.Idx.first hu)) g (Finset.univ : Finset (Fin b)))
      (funext fun k => congrArg x (lift_second h r k)))

end Cert.LibRowwise

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.LibRowReduce.lean ====
/-
  Reductions over the LAST axis, read at coordinates.

  A matrix `[a, b]` reduced over its lane axis gives, at row `r`, the sum / the fold of `max` / the fold of `min` over
  `k : Fin b` of the entry `(r, k)`; a rank-3 array `[n0, n1, n2]` reduced on the host over its last axis gives, at
  `(i, j)`, the fold of the reduce's body from the initial value over `k : Fin n2` of the entry `(i, j, k)`. The library
  states these over the reduced index with the coordinate re-inserted (`Shape.Reduces.lift`); here the re-inserted
  index is written by its coordinates, so that both readings of one row meet as folds of one function on `Fin b`.
  Library imports only.
-/
import Idealize.ShloMosaic.PureOps.Ideal.Laws
import Idealize.ShloMosaic.Lib.ValueIdx

noncomputable section

namespace Cert.LibRowReduce

open Idealize.ShloMosaic Idealize.ShloMosaic.ValueIdx

variable {φ : FTy}

/-- Row `r` with lane `k` put back is the entry `(r, k)`. -/
theorem lift_row {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- A lane sum of a matrix at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A lane maximum of a matrix at row `r`: the fold of `max` from the accumulator's value over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) fun k => src (ix2 r k) :=
  (Ideal.multiReduction_maximumf_single src acc h hφ hacc (ix1 r)).trans
    (congrArg (fun f => Finset.fold max (Ideal.ofBits φ acc) f (Finset.univ : Finset (Fin b)))
      (funext fun k => congrArg src (lift_row h r k)))

/-- A lane minimum of a matrix at row `r`: the fold of `min` from the accumulator's value over the row's entries. -/
theorem multiReduction_min_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) fun k => src (ix2 r k) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- Index `(i, j)` with the last coordinate `k` put back is the entry `(i, j, k)`. -/
theorem lift_last3 {n0 n1 n2 : ℕ} (h : (⟨3, ![n0, n1, n2]⟩ : Shape).Reduces [2] ⟨2, ![n0, n1]⟩) (i : Fin n0) (j : Fin n1)
    (k : Fin n2) : h.lift (ix2 i j) k = ix3 i j k := by
  funext c; apply Fin.ext
  fin_cases c <;> rfl

/-- The host's reduce of a rank-3 array over its last axis by a commutative, associative body, at `(i, j)`: the fold from
    the initial value over the entries `(i, j, k)`. -/
theorem hostReduce_last3 {α : Type} {n0 n1 n2 : ℕ} {u : Shape} (f : α → α → α) [Std.Commutative f] [Std.Associative f]
    (x : (⟨3, ![n0, n1, n2]⟩ : Shape).Idx → α) (init : u.Idx → α)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (i : Fin n0) (j : Fin n1) :
    Host.reduce f x init h' hu (ix2 i j)
      = (Finset.univ : Finset (Fin n2)).fold f (init (Shape.Idx.first hu)) fun k => x (ix3 i j k) :=
  (Host.reduce_eq_fold_single f x init h' h hu (ix2 i j)).trans
    (congrArg (fun g => Finset.fold f (init (Shape.Idx.first hu)) g (Finset.univ : Finset (Fin n2)))
      (funext fun k => congrArg x (lift_last3 h i j k)))

/-- The host's float sum of a rank-3 array over its last axis, at `(i, j)`: the initial value plus the entries' sum. -/
theorem hostReduceAdd_last3 {n0 n1 n2 : ℕ} (x : (⟨3, ![n0, n1, n2]⟩ : Shape).Idx → EReal) (init : EReal)
    (h' : (⟨3, ![n0, n1, n2]⟩ : Shape).ReducesTo [2] ⟨2, ![n0, n1]⟩) (h : (⟨3, ![n0, n1, n2]⟩ : Shape).Reduces [2] ⟨2, ![n0, n1]⟩)
    (i : Fin n0) (j : Fin n1) :
    Ideal.hostReduceAdd h' x init (ix2 i j) = init + ∑ k : Fin n2, x (ix3 i j k) :=
  (Ideal.hostReduceAdd_single h' h x init (ix2 i j)).trans
    (congrArg (init + ·) (Finset.sum_congr rfl fun k _ => congrArg x (lift_last3 h i j k)))

end Cert.LibRowReduce

end
-- ==== Proof.EdgePayload.lean ====
/-
  The edge kernel's arithmetic, read entry by entry on the extended reals.

  A block holds 2560 edges.  Row r of the block's outputs depends only on row r of the three moving input blocks (the
  two gathered feature rows a, b and the coordinate difference d) and on the weight blocks, which every grid point sees
  whole:  the feature message is msgH W a b d and the coordinate message msgX W ε a b d of the specification, with W
  the weights read off the blocks.  Each matrix product into a zero accumulator is the textbook sum over the
  contracted coordinate; a [128] bias row cast to [1,128] and broadcast down the rows adds its entry j to column j;
  the length column [2560,1] broadcast along a row contributes its one entry; a change of float format is the
  identity.
-/
import proofs.«117037_j42511586296497_1_alg».proof.Proof.Gen.KernelIdeal.Skeleton
import proofs.«117037_j42511586296497_1_alg».proof.Proof.Spec
import proofs.«117037_j42511586296497_1_alg».proof.Proof.LibDot
import proofs.«117037_j42511586296497_1_alg».proof.Proof.LibRowwise
import proofs.«117037_j42511586296497_1_alg».proof.Proof.LibColumnLayout
import proofs.«117037_j42511586296497_1_alg».proof.Proof.LibRowReduce
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgePayload

open Cert.KernelIdeal Cert.KernelIdeal.Gen Cert.Egnn
open Idealize.ShloMosaic Idealize.ShloMosaic.ValueIdx
open scoped BigOperators

/-! ## The two matrix products' dimension records -/

abbrev DSq := dot_S2560x128_S128x128_S2560x128_1_0_0_1_n_n
abbrev DCol := dot_S2560x128_S128x1_S2560x1_1_0_0_1_n_n

theorem dsq_l0 (j : S2560x128.Idx) (q : DSq.contr.Idx) : (DSq.lhsIdx j q 0).val = (j 0).val := by
  unfold DotDims.lhsIdx
  rw [dif_neg (show ¬(0 : Fin S2560x128.rank) ∈ DSq.lhsBatch by decide), dif_pos (show (0 : Fin S2560x128.rank) ∈ DSq.lhsNonContracting by decide)]
  rfl
theorem dsq_l1 (j : S2560x128.Idx) (q : DSq.contr.Idx) : (DSq.lhsIdx j q 1).val = (q ⟨0, by decide⟩).val :=
  DSq.lhsIdx_val_of_single rfl j q
theorem dsq_r0 (j : S2560x128.Idx) (q : DSq.contr.Idx) : (DSq.rhsIdx j q 0).val = (q ⟨0, by decide⟩).val :=
  DSq.rhsIdx_val_of_single rfl j q
theorem dsq_r1 (j : S2560x128.Idx) (q : DSq.contr.Idx) : (DSq.rhsIdx j q 1).val = (j 1).val := by
  unfold DotDims.rhsIdx
  rw [dif_neg (show ¬(1 : Fin S128x128.rank) ∈ DSq.rhsBatch by decide), dif_pos (show (1 : Fin S128x128.rank) ∈ DSq.rhsNonContracting by decide)]
  rfl

theorem dcol_l0 (j : S2560x1.Idx) (q : DCol.contr.Idx) : (DCol.lhsIdx j q 0).val = (j 0).val := by
  unfold DotDims.lhsIdx
  rw [dif_neg (show ¬(0 : Fin S2560x128.rank) ∈ DCol.lhsBatch by decide), dif_pos (show (0 : Fin S2560x128.rank) ∈ DCol.lhsNonContracting by decide)]
  rfl
theorem dcol_l1 (j : S2560x1.Idx) (q : DCol.contr.Idx) : (DCol.lhsIdx j q 1).val = (q ⟨0, by decide⟩).val :=
  DCol.lhsIdx_val_of_single rfl j q
theorem dcol_r0 (j : S2560x1.Idx) (q : DCol.contr.Idx) : (DCol.rhsIdx j q 0).val = (q ⟨0, by decide⟩).val :=
  DCol.rhsIdx_val_of_single rfl j q
theorem dcol_r1 (j : S2560x1.Idx) (q : DCol.contr.Idx) : (DCol.rhsIdx j q 1).val = (j 1).val := by
  unfold DotDims.rhsIdx
  rw [dif_neg (show ¬(1 : Fin S128x1.rank) ∈ DCol.rhsBatch by decide), dif_pos (show (1 : Fin S128x1.rank) ∈ DCol.rhsNonContracting by decide)]
  rfl

/-- A [2560,128]·[128,128] product into a zero accumulator at entry (r, j). -/
theorem mm_sq {φ₁ φ₂ : FTy} (lhs : FVec Ideal S2560x128 φ₁) (rhs : FVec Ideal S128x128 φ₂) (r : Fin 2560) (j : Fin 128) :
    FloatOps.matmul DSq none lhs rhs (constant S2560x128 .f32 0x00000000#32) (ix2 r j) = ∑ i : Fin 128, lhs (ix2 r i) * rhs (ix2 i j) :=
  Cert.LibDot.matmul_zero_apply DSq rfl rfl dsq_l0 dsq_l1 dsq_r0 dsq_r1 none lhs rhs r j

/-- A [2560,128]·[128,1] product into a zero accumulator at entry (r, u). -/
theorem mm_col {φ₁ φ₂ : FTy} (lhs : FVec Ideal S2560x128 φ₁) (rhs : FVec Ideal S128x1 φ₂) (r : Fin 2560) (u : Fin 1) :
    FloatOps.matmul DCol none lhs rhs (constant S2560x1 .f32 0x00000000#32) (ix2 r u) = ∑ i : Fin 128, lhs (ix2 r i) * rhs (ix2 i u) :=
  Cert.LibDot.matmul_zero_apply DCol rfl rfl dcol_l0 dcol_l1 dcol_r0 dcol_r1 none lhs rhs r u

/-! ## The weights as a block sees them -/

/-- The edge weights read off the nine weight blocks. -/
def blockW (wa wb : Vec Ideal S128x128 .bf16) (wd : Vec Ideal S1x128 .f32) (b1 : Vec Ideal S128 .f32)
    (w2 : Vec Ideal S128x128 .bf16) (b2 : Vec Ideal S128 .f32) (wc1 : Vec Ideal S128x128 .bf16) (bc1 : Vec Ideal S128 .f32)
    (wc2 : Vec Ideal S128x1 .bf16) : EdgeW where
  wa := mat wa
  wb := mat wb
  wd := fun j => wd (ix2 (0 : Fin 1) j)
  b1 := vec b1
  w2 := mat w2
  b2 := vec b2
  wc1 := mat wc1
  bc1 := vec bc1
  wc2 := fun k => wc2 (ix2 k (0 : Fin 1))

/-! ## The pieces of the body -/

/-- The length column: entry (r, ·) is the Euclidean length of row r of the difference block. -/
theorem length_apply (d : Vec Ideal S2560x3 .f32) (r : Fin 2560) (u : Fin 1) :
    k0_pay4 (F := Ideal) d (ix2 r u) = norm3 (rowOf d r) := by
  unfold k0_pay4 k0_pay3
  show Ideal.sqrt (_ : EReal) = Ideal.sqrt _
  refine congrArg Ideal.sqrt ?_
  refine (Cert.LibColumnLayout.shapeCast_a_a1_apply _ _ r u).trans ?_
  refine (Cert.LibRowReduce.multiReduction_add_row _ _ _ _ _ r).trans ?_
  refine Finset.sum_congr rfl fun q _ => ?_
  show shapeCast S2560x3 d shapeCasts_S2560x3_S2560x3 (ix2 r q) * shapeCast S2560x3 d shapeCasts_S2560x3_S2560x3 (ix2 r q) = _
  rw [shapeCast_self]
  rfl

/-- The unit direction: entry (r, q) is d(r,q) / (|d(r,·)| + ε). -/
theorem direction_apply (d : Vec Ideal S2560x3 .f32) (r : Fin 2560) (q : Fin 3) :
    k0_pay5 (F := Ideal) d (ix2 r q) = Ideal.div (d (ix2 r q)) (norm3 (rowOf d r) + Ideal.ofBits .f32 0x33D6BF95#32) := by
  unfold k0_pay5 k0_pay3
  show Ideal.div (shapeCast S2560x3 d shapeCasts_S2560x3_S2560x3 (ix2 r q)) (broadcastTo S2560x3 _ broadcasts_S2560x1_S2560x3 (ix2 r q)) = _
  rw [shapeCast_self, Cert.LibColumnLayout.broadcastTo_a1_ab_apply]
  show Ideal.div _ (k0_pay4 (F := Ideal) d (ix2 r (0 : Fin 1)) + _) = _
  rw [length_apply]
  rfl

/-- A [128] row cast to [1,128] and broadcast down 2560 rows adds its entry j to column j. -/
theorem bias_apply (b : Vec Ideal S128 .f32) (r : Fin 2560) (j : Fin 128) :
    broadcastTo S2560x128 (shapeCast S1x128 b shapeCasts_S128_S1x128) broadcasts_S1x128_S2560x128 (ix2 r j) = b (ix1 j) :=
  Cert.LibRowwise.rowUnder_apply b shapeCasts_S128_S1x128 broadcasts_S1x128_S2560x128 r j

/-- The [1,128] row broadcast down 2560 rows reads its entry (0, j). -/
theorem row_apply (w : FVec Ideal S1x128 .f32) (r : Fin 2560) (j : Fin 128) :
    broadcastTo S2560x128 w broadcasts_S1x128_S2560x128 (ix2 r j) = w (ix2 (0 : Fin 1) j) := by
  refine broadcastTo_apply w broadcasts_S1x128_S2560x128 (ix2 r j) (ix2 (0 : Fin 1) j) fun ax => ?_
  match ax with
  | ⟨0, _⟩ => rfl
  | ⟨1, _⟩ => rfl

/-- The second product of the edge network at entry (r, j): the first hidden layer of row r against column j of the
    second weight block. -/
theorem second_product_apply (a b : Vec Ideal S2560x128 .bf16) (d : Vec Ideal S2560x3 .f32) (wa wb : Vec Ideal S128x128 .bf16)
    (wd : Vec Ideal S1x128 .f32) (b1 : Vec Ideal S128 .f32) (w2 : Vec Ideal S128x128 .bf16) (b2 : Vec Ideal S128 .f32)
    (wc1 : Vec Ideal S128x128 .bf16) (bc1 : Vec Ideal S128 .f32) (wc2 : Vec Ideal S128x1 .bf16) (r : Fin 2560) (j : Fin 128) :
    k0_pay6 (F := Ideal) a b d wa wb wd b1 w2 (ix2 r j)
      = ∑ k : Fin 128, hidden1 (blockW wa wb wd b1 w2 b2 wc1 bc1 wc2) (rowOf a r) (rowOf b r) (rowOf d r) k * (blockW wa wb wd b1 w2 b2 wc1 bc1 wc2).w2 k j := by
  unfold k0_pay6
  refine (mm_sq _ _ r j).trans ?_
  refine Finset.sum_congr rfl fun k _ => ?_
  simp only [shapeCast_self]
  refine congrArg (· * w2 (ix2 k j)) ?_
  show (fun t : EReal => t * Ideal.logistic t) _ = silu _
  refine congrArg silu ?_
  show ((FloatOps.matmul DSq none a wa (constant S2560x128 .f32 0x00000000#32) (ix2 r k)
        + FloatOps.matmul DSq none b wb (constant S2560x128 .f32 0x00000000#32) (ix2 r k))
      + broadcastTo S2560x128 (k0_pay4 (F := Ideal) d) broadcasts_S2560x1_S2560x128 (ix2 r k)
        * broadcastTo S2560x128 wd broadcasts_S1x128_S2560x128 (ix2 r k))
      + broadcastTo S2560x128 (shapeCast S1x128 b1 shapeCasts_S128_S1x128) broadcasts_S1x128_S2560x128 (ix2 r k) = _
  rw [mm_sq, mm_sq, bias_apply, row_apply, Cert.LibColumnLayout.broadcastTo_a1_ab_apply, length_apply]
  rfl

/-- THE FEATURE MESSAGE: the first output block at entry (r, j). -/
theorem feature_message_apply (a b : Vec Ideal S2560x128 .bf16) (d : Vec Ideal S2560x3 .f32) (wa wb : Vec Ideal S128x128 .bf16)
    (wd : Vec Ideal S1x128 .f32) (b1 : Vec Ideal S128 .f32) (w2 : Vec Ideal S128x128 .bf16) (b2 : Vec Ideal S128 .f32)
    (wc1 : Vec Ideal S128x128 .bf16) (bc1 : Vec Ideal S128 .f32) (wc2 : Vec Ideal S128x1 .bf16) (r : Fin 2560) (j : Fin 128) :
    k0_pay1 (F := Ideal) b2 (k0_pay6 (F := Ideal) a b d wa wb wd b1 w2) (ix2 r j)
      = msgH (blockW wa wb wd b1 w2 b2 wc1 bc1 wc2) (rowOf a r) (rowOf b r) (rowOf d r) j := by
  unfold k0_pay1
  show (fun t : EReal => t * Ideal.logistic t) (k0_pay6 (F := Ideal) a b d wa wb wd b1 w2 (ix2 r j)
      + broadcastTo S2560x128 (shapeCast S1x128 b2 shapeCasts_S128_S1x128) broadcasts_S1x128_S2560x128 (ix2 r j)) = _
  rw [bias_apply, second_product_apply a b d wa wb wd b1 w2 b2 wc1 bc1 wc2 r j]
  rfl

/-- THE COORDINATE MESSAGE: the second output block at entry (r, q). -/
theorem coordinate_message_apply (a b : Vec Ideal S2560x128 .bf16) (d : Vec Ideal S2560x3 .f32) (wa wb : Vec Ideal S128x128 .bf16)
    (wd : Vec Ideal S1x128 .f32) (b1 : Vec Ideal S128 .f32) (w2 : Vec Ideal S128x128 .bf16) (b2 : Vec Ideal S128 .f32)
    (wc1 : Vec Ideal S128x128 .bf16) (bc1 : Vec Ideal S128 .f32) (wc2 : Vec Ideal S128x1 .bf16) (r : Fin 2560) (q : Fin 3) :
    k0_pay2 (F := Ideal) (k0_pay5 (F := Ideal) d) b2 (k0_pay6 (F := Ideal) a b d wa wb wd b1 w2) wc1 bc1 wc2 (ix2 r q)
      = msgX (blockW wa wb wd b1 w2 b2 wc1 bc1 wc2) (Ideal.ofBits .f32 0x33D6BF95#32) (rowOf a r) (rowOf b r) (rowOf d r) q := by
  unfold k0_pay2
  show broadcastTo S2560x3 (FloatOps.matmul DCol none _ (shapeCast S128x1 wc2 shapeCasts_S128x1_S128x1) (constant S2560x1 .f32 0x00000000#32)) broadcasts_S2560x1_S2560x3 (ix2 r q)
      * k0_pay5 (F := Ideal) d (ix2 r q) = _
  rw [Cert.LibColumnLayout.broadcastTo_a1_ab_apply, mm_col, direction_apply]
  refine congrArg (· * Ideal.div (d (ix2 r q)) (norm3 (rowOf d r) + Ideal.ofBits .f32 0x33D6BF95#32)) ?_
  refine Finset.sum_congr rfl fun k _ => ?_
  simp only [shapeCast_self]
  refine congrArg (· * wc2 (ix2 k (0 : Fin 1))) ?_
  show (fun t : EReal => t * Ideal.logistic t) (FloatOps.matmul (F := Ideal) (φ₁ := .bf16) (φ₂ := .bf16) DSq none _ wc1 (constant S2560x128 .f32 0x00000000#32) (ix2 r k)
      + broadcastTo S2560x128 (shapeCast S1x128 bc1 shapeCasts_S128_S1x128) broadcasts_S1x128_S2560x128 (ix2 r k)) = silu _
  refine congrArg silu ?_
  rw [bias_apply, mm_sq]
  refine congrArg (· + bc1 (ix1 k)) ?_
  refine Finset.sum_congr rfl fun i _ => ?_
  refine congrArg (· * wc1 (ix2 i k)) ?_
  exact feature_message_apply a b d wa wb wd b1 w2 b2 wc1 bc1 wc2 r i

end Cert.KernelIdeal.EdgePayload

end
-- ==== Proof.EdgeRegion.lean ====
/-
  From the edge kernel's blocks to its two output arrays.

  The edge kernel runs over 250 grid points; point t sees rows 2560·t … 2560·t + 2559 of the three moving inputs (the
  gathered source and destination features and the coordinate differences) and every weight array whole, and writes
  back rows 2560·t … of its two outputs.  What it writes back is the block of ONE whole-array function — the feature
  messages msgHArr and the coordinate messages msgXArr of the specification, at the weights read off the weight arrays —
  and the 250 blocks tile the 640000 rows, so each output array ends holding that function.  Stated at any contents V
  of the buffers when the kernel is entered.
-/
import proofs.«117037_j42511586296497_1_alg».proof.Proof.Gen.KernelIdeal.Frame
import proofs.«117037_j42511586296497_1_alg».proof.Proof.EdgePayload
import Idealize.ShloMosaic.Lib.Pipeline.Value

set_option maxRecDepth 16384

noncomputable section

namespace Cert.KernelIdeal.EdgeRegion

open Cert.KernelIdeal Cert.KernelIdeal.Gen Cert.KernelIdeal.EdgePayload Cert.Egnn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

theorem zero2 : (![0, 0] : Fin 2 → Nat) = fun _ => 0 := funext fun a => by fin_cases a <;> rfl
theorem zero1 : (![0] : Fin 1 → Nat) = fun _ => 0 := funext fun a => by fin_cases a <;> rfl

/-- The moving windows' block index at point t is (t, 0). -/
theorem moving_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- The weight windows' block index is zero at every point. -/
theorem fixed_index : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0 :=
  (by decide +kernel : ∀ t : Fin grid0.N, _)

/-- Row 2560·t + r of a 640000-row array. -/
def rowAt (t : Fin cfg0.N) (r : Fin 2560) : Fin 640000 :=
  ⟨t.val * 2560 + r.val, by have := t.isLt; have := r.isLt; have : cfg0.N = 250 := N_0; omega⟩

/-! ## The input blocks as rows of the arrays -/

theorem src_block (t : Fin cfg0.N) (r : Fin 2560) (k : Fin 128) :
    (iblk0 V c 0 t : Vec Ideal S2560x128 .bf16) (ix2 r k) = (V c main_v7 : S640000x128.Idx → EReal) (ix2 (rowAt t r) k) := by
  obtain ⟨e0, e1, -⟩ := moving_index t
  unfold iblk0
  rw [View.read_apply]
  refine congrArg (V c main_v7 : S640000x128.Idx → EReal) ?_
  funext a
  apply Fin.ext
  match a with
  | ⟨0, _⟩ => show win0_0.index t 0 * 2560 + 1 * r.val = t.val * 2560 + r.val; rw [e0]; omega
  | ⟨1, _⟩ => show win0_0.index t 1 * 128 + 1 * k.val = k.val; rw [e1]; omega

theorem dst_block (t : Fin cfg0.N) (r : Fin 2560) (k : Fin 128) :
    (iblk0 V c 1 t : Vec Ideal S2560x128 .bf16) (ix2 r k) = (V c main_v15 : S640000x128.Idx → EReal) (ix2 (rowAt t r) k) := by
  obtain ⟨-, -, e0, e1, -⟩ := moving_index t
  unfold iblk0
  rw [View.read_apply]
  refine congrArg (V c main_v15 : S640000x128.Idx → EReal) ?_
  funext a
  apply Fin.ext
  match a with
  | ⟨0, _⟩ => show win0_1.index t 0 * 2560 + 1 * r.val = t.val * 2560 + r.val; rw [e0]; omega
  | ⟨1, _⟩ => show win0_1.index t 1 * 128 + 1 * k.val = k.val; rw [e1]; omega

theorem diff_block (t : Fin cfg0.N) (r : Fin 2560) (q : Fin 3) :
    (iblk0 V c 2 t : Vec Ideal S2560x3 .f32) (ix2 r q) = (V c main_v30 : S640000x3.Idx → EReal) (ix2 (rowAt t r) q) := by
  obtain ⟨-, -, -, -, e0, e1, -⟩ := moving_index t
  unfold iblk0
  rw [View.read_apply]
  refine congrArg (V c main_v30 : S640000x3.Idx → EReal) ?_
  funext a
  apply Fin.ext
  match a with
  | ⟨0, _⟩ => show win0_2.index t 0 * 2560 + 1 * r.val = t.val * 2560 + r.val; rw [e0]; omega
  | ⟨1, _⟩ => show win0_2.index t 1 * 3 + 1 * q.val = q.val; rw [e1]; omega

/-! ## The weight blocks are the weight arrays -/

theorem wa_block (t : Fin cfg0.N) : (iblk0 V c 3 t : Vec Ideal S128x128 .bf16) = V c main_v32 := by
  obtain ⟨e0, e1, -⟩ := fixed_index t
  funext y
  unfold iblk0
  rw [View.read_apply]
  refine congrArg (V c main_v32 : S128x128.Idx → EReal) ?_
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

theorem wb_block (t : Fin cfg0.N) : (iblk0 V c 4 t : Vec Ideal S128x128 .bf16) = V c main_v34 := by
  obtain ⟨-, -, e0, e1, -⟩ := fixed_index t
  funext y
  unfold iblk0
  rw [View.read_apply]
  refine congrArg (V c main_v34 : S128x128.Idx → EReal) ?_
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega

theorem wd_block (t : Fin cfg0.N) : (iblk0 V c 5 t : Vec Ideal S1x128 .f32) = V c main_v35 := by
  obtain ⟨-, -, -, -, e0, e1, -⟩ := fixed_index t
  funext y
  unfold iblk0
  rw [View.read_apply]
  refine congrArg (V c main_v35 : S1x128.Idx → EReal) ?_
  funext a
  apply Fin.ext
  match a with
  | ⟨0, _⟩ => show win0_5.index t 0 * 1 + 1 * (y 0).val = (y 0).val; rw [e0]; omega
  | ⟨1, _⟩ => show win0_5.index t 1 * 128 + 1 * (y 1).val = (y 1).val; rw [e1]; omega

theorem b1_block (t : Fin cfg0.N) : (iblk0 V c 6 t : Vec Ideal S128 .f32) = V c main_arg5 := by
  obtain ⟨-, -, -, -, -, -, e0, -⟩ := fixed_index t
  funext y
  unfold iblk0
  rw [View.read_apply]
  refine congrArg (V c main_arg5 : S128.Idx → EReal) ?_
  funext a
  apply Fin.ext
  match a with
  | ⟨0, _⟩ => show win0_6.index t 0 * 128 + 1 * (y 0).val = (y 0).val; rw [e0]; omega

theorem w2_block (t : Fin cfg0.N) : (iblk0 V c 7 t : Vec Ideal S128x128 .bf16) = V c main_v36 := by
  obtain ⟨-, -, -, -, -, -, -, e0, e1, -⟩ := fixed_index t
  funext y
  unfold iblk0
  rw [View.read_apply]
  refine congrArg (V c main_v36 : S128x128.Idx → EReal) ?_
  funext a
  apply Fin.ext
  match a with
  | ⟨0, _⟩ => show win0_7.index t 0 * 128 + 1 * (y 0).val = (y 0).val; rw [e0]; omega
  | ⟨1, _⟩ => show win0_7.index t 1 * 128 + 1 * (y 1).val = (y 1).val; rw [e1]; omega

theorem b2_block (t : Fin cfg0.N) : (iblk0 V c 8 t : Vec Ideal S128 .f32) = V c main_arg7 := by
  obtain ⟨-, -, -, -, -, -, -, -, -, e0, -⟩ := fixed_index t
  funext y
  unfold iblk0
  rw [View.read_apply]
  refine congrArg (V c main_arg7 : S128.Idx → EReal) ?_
  funext a
  apply Fin.ext
  match a with
  | ⟨0, _⟩ => show win0_8.index t 0 * 128 + 1 * (y 0).val = (y 0).val; rw [e0]; omega

theorem wc1_block (t : Fin cfg0.N) : (iblk0 V c 9 t : Vec Ideal S128x128 .bf16) = V c main_v37 := by
  obtain ⟨-, -, -, -, -, -, -, -, -, -, e0, e1, -⟩ := fixed_index t
  funext y
  unfold iblk0
  rw [View.read_apply]
  refine congrArg (V c main_v37 : S128x128.Idx → EReal) ?_
  funext a
  apply Fin.ext
  match a with
  | ⟨0, _⟩ => show win0_9.index t 0 * 128 + 1 * (y 0).val = (y 0).val; rw [e0]; omega
  | ⟨1, _⟩ => show win0_9.index t 1 * 128 + 1 * (y 1).val = (y 1).val; rw [e1]; omega

theorem bc1_block (t : Fin cfg0.N) : (iblk0 V c 10 t : Vec Ideal S128 .f32) = V c main_arg13 := by
  obtain ⟨-, -, -, -, -, -, -, -, -, -, -, -, e0, -⟩ := fixed_index t
  funext y
  unfold iblk0
  rw [View.read_apply]
  refine congrArg (V c main_arg13 : S128.Idx → EReal) ?_
  funext a
  apply Fin.ext
  match a with
  | ⟨0, _⟩ => show win0_10.index t 0 * 128 + 1 * (y 0).val = (y 0).val; rw [e0]; omega

theorem wc2_block (t : Fin cfg0.N) : (iblk0 V c 11 t : Vec Ideal S128x1 .bf16) = V c main_v38 := by
  obtain ⟨-, -, -, -, -, -, -, -, -, -, -, -, -, e0, e1⟩ := fixed_index t
  funext y
  unfold iblk0
  rw [View.read_apply]
  refine congrArg (V c main_v38 : S128x1.Idx → EReal) ?_
  funext a
  apply Fin.ext
  match a with
  | ⟨0, _⟩ => show win0_11.index t 0 * 128 + 1 * (y 0).val = (y 0).val; rw [e0]; omega
  | ⟨1, _⟩ => show win0_11.index t 1 * 1 + 1 * (y 1).val = (y 1).val; rw [e1]; omega

/-- The edge weights as the kernel finds them in its weight arrays. -/
def entryW : EdgeW :=
  blockW (V c main_v32) (V c main_v34) (V c main_v35) (V c main_arg5) (V c main_v36) (V c main_arg7) (V c main_v37) (V c main_arg13) (V c main_v38)

/-! ## What a point writes back -/

/-- Point t writes back its block of the feature messages. -/
theorem flushed_features (t : Fin cfg0.N) :
    (dat0 (F := Ideal) V c).flushed 12 t
      = ((cfg0.win 12).blk t).view.read (Elt Ideal) (msgHArr (entryW V c) (V c main_v7) (V c main_v15) (V c main_v30)) := by
  show (cfg0.win 12).cut (grid0.coords t) ((dat0 V c).after 12 t) = _
  rw [after0_12]
  unfold out0_12
  rw [View.canon_unit_zero zero2]
  simp only [View.ld_unit_zero (S := S2560x128) zero2, View.ld_unit_zero (S := S2560x3) zero2, View.ld_unit_zero (S := S128x128) zero2,
    View.ld_unit_zero (S := S1x128) zero2, View.ld_unit_zero (S := S128) zero1]
  rw [wa_block, wb_block, wd_block, b1_block, w2_block, b2_block]
  obtain ⟨-, -, -, -, -, -, e0, e1, -⟩ := moving_index t
  funext j
  obtain ⟨r, k, rfl⟩ : ∃ (r : Fin 2560) (k : Fin 128), j = ix2 r k := ⟨j 0, j 1, eq_ix2 j⟩
  show (k0_pay1 (F := Ideal) (V c main_arg7) (k0_pay6 (F := Ideal) (iblk0 V c 0 t) (iblk0 V c 1 t) (iblk0 V c 2 t) (V c main_v32) (V c main_v34)
      (V c main_v35) (V c main_arg5) (V c main_v36)) : Vec Ideal S2560x128 .f32) (ix2 r k) = _
  rw [feature_message_apply _ _ _ _ _ _ _ _ _ (V c main_v37) (V c main_arg13) (V c main_v38) r k, View.read_apply]
  have hemb : ((cfg0.win 12).blk t).view.emb (ix2 r k) = (ix2 (rowAt t r) k : S640000x128.Idx) := by
    funext a
    apply Fin.ext
    match a with
    | ⟨0, _⟩ => show win0_12.index t 0 * 2560 + 1 * r.val = t.val * 2560 + r.val; rw [e0]; omega
    | ⟨1, _⟩ => show win0_12.index t 1 * 128 + 1 * k.val = k.val; rw [e1]; omega
  rw [hemb, msgHArr_apply]
  have ha : rowOf (iblk0 V c 0 t : Vec Ideal S2560x128 .bf16) r = rowOf (V c main_v7 : S640000x128.Idx → EReal) (rowAt t r) :=
    funext fun i => src_block V c t r i
  have hb : rowOf (iblk0 V c 1 t : Vec Ideal S2560x128 .bf16) r = rowOf (V c main_v15 : S640000x128.Idx → EReal) (rowAt t r) :=
    funext fun i => dst_block V c t r i
  have hd : rowOf (iblk0 V c 2 t : Vec Ideal S2560x3 .f32) r = rowOf (V c main_v30 : S640000x3.Idx → EReal) (rowAt t r) :=
    funext fun i => diff_block V c t r i
  rw [ha, hb, hd]
  rfl

/-- Point t writes back its block of the coordinate messages. -/
theorem flushed_coords (t : Fin cfg0.N) :
    (dat0 (F := Ideal) V c).flushed 13 t
      = ((cfg0.win 13).blk t).view.read (Elt Ideal)
          (msgXArr (entryW V c) (Ideal.ofBits .f32 0x33D6BF95#32) (V c main_v7) (V c main_v15) (V c main_v30)) := by
  show (cfg0.win 13).cut (grid0.coords t) ((dat0 V c).after 13 t) = _
  rw [after0_13]
  unfold out0_13
  rw [View.canon_unit_zero zero2]
  simp only [View.ld_unit_zero (S := S2560x128) zero2, View.ld_unit_zero (S := S2560x3) zero2, View.ld_unit_zero (S := S128x128) zero2,
    View.ld_unit_zero (S := S1x128) zero2, View.ld_unit_zero (S := S128) zero1, View.ld_unit_zero (S := S128x1) zero2]
  rw [wa_block, wb_block, wd_block, b1_block, w2_block, b2_block, wc1_block, bc1_block, wc2_block]
  obtain ⟨-, -, -, -, -, -, -, -, e0, e1⟩ := moving_index t
  funext j
  obtain ⟨r, q, rfl⟩ : ∃ (r : Fin 2560) (q : Fin 3), j = ix2 r q := ⟨j 0, j 1, eq_ix2 j⟩
  show (k0_pay2 (F := Ideal) (k0_pay5 (F := Ideal) (iblk0 V c 2 t)) (V c main_arg7) (k0_pay6 (F := Ideal) (iblk0 V c 0 t) (iblk0 V c 1 t) (iblk0 V c 2 t)
      (V c main_v32) (V c main_v34) (V c main_v35) (V c main_arg5) (V c main_v36)) (V c main_v37) (V c main_arg13) (V c main_v38) : Vec Ideal S2560x3 .f32) (ix2 r q) = _
  rw [coordinate_message_apply, View.read_apply]
  have hemb : ((cfg0.win 13).blk t).view.emb (ix2 r q) = (ix2 (rowAt t r) q : S640000x3.Idx) := by
    funext a
    apply Fin.ext
    match a with
    | ⟨0, _⟩ => show win0_13.index t 0 * 2560 + 1 * r.val = t.val * 2560 + r.val; rw [e0]; omega
    | ⟨1, _⟩ => show win0_13.index t 1 * 3 + 1 * q.val = q.val; rw [e1]; omega
  rw [hemb, msgXArr_apply]
  have ha : rowOf (iblk0 V c 0 t : Vec Ideal S2560x128 .bf16) r = rowOf (V c main_v7 : S640000x128.Idx → EReal) (rowAt t r) :=
    funext fun i => src_block V c t r i
  have hb : rowOf (iblk0 V c 1 t : Vec Ideal S2560x128 .bf16) r = rowOf (V c main_v15 : S640000x128.Idx → EReal) (rowAt t r) :=
    funext fun i => dst_block V c t r i
  have hd : rowOf (iblk0 V c 2 t : Vec Ideal S2560x3 .f32) r = rowOf (V c main_v30 : S640000x3.Idx → EReal) (rowAt t r) :=
    funext fun i => diff_block V c t r i
  rw [ha, hb, hd]
  rfl

/-! ## The blocks tile the arrays -/

/-- The point whose block holds row e. -/
def pointOf (e : Fin 640000) : Fin cfg0.N :=
  ⟨e.val / 2560, by have := e.isLt; have : cfg0.N = 250 := N_0; omega⟩

theorem features_covered (i : S640000x128.Idx) :
    ∃ t : Fin cfg0.N, (cfg0.win 12).flush t = true ∧ i ∈ ((cfg0.win 12).blk t).view.set := by
  have hi0 : (i 0).val < 640000 := (i 0).isLt
  have hi1 : (i 1).val < 128 := (i 1).isLt
  refine ⟨pointOf ⟨(i 0).val, hi0⟩, flush0_12 _, ?_⟩
  obtain ⟨-, -, -, -, -, -, e0, e1, -⟩ := moving_index (pointOf ⟨(i 0).val, hi0⟩)
  show i ∈ ((View.whole main_v39_0).slice (win0_12.rect (pointOf ⟨(i 0).val, hi0⟩))).set
  rw [View.set_slice_whole, Rect.mem_set_unit]
  intro a
  match a with
  | ⟨0, _⟩ =>
    show win0_12.index (pointOf ⟨(i 0).val, hi0⟩) (0 : Fin 2) * 2560 ≤ (i 0).val ∧ (i 0).val < win0_12.index (pointOf ⟨(i 0).val, hi0⟩) (0 : Fin 2) * 2560 + 2560
    rw [e0]; show (i 0).val / 2560 * 2560 ≤ (i 0).val ∧ (i 0).val < (i 0).val / 2560 * 2560 + 2560; omega
  | ⟨1, _⟩ =>
    show win0_12.index (pointOf ⟨(i 0).val, hi0⟩) (1 : Fin 2) * 128 ≤ (i 1).val ∧ (i 1).val < win0_12.index (pointOf ⟨(i 0).val, hi0⟩) (1 : Fin 2) * 128 + 128
    rw [e1]; omega

theorem coords_covered (i : S640000x3.Idx) :
    ∃ t : Fin cfg0.N, (cfg0.win 13).flush t = true ∧ i ∈ ((cfg0.win 13).blk t).view.set := by
  have hi0 : (i 0).val < 640000 := (i 0).isLt
  have hi1 : (i 1).val < 3 := (i 1).isLt
  refine ⟨pointOf ⟨(i 0).val, hi0⟩, flush0_13 _, ?_⟩
  obtain ⟨-, -, -, -, -, -, -, -, e0, e1⟩ := moving_index (pointOf ⟨(i 0).val, hi0⟩)
  show i ∈ ((View.whole main_v39_1).slice (win0_13.rect (pointOf ⟨(i 0).val, hi0⟩))).set
  rw [View.set_slice_whole, Rect.mem_set_unit]
  intro a
  match a with
  | ⟨0, _⟩ =>
    show win0_13.index (pointOf ⟨(i 0).val, hi0⟩) (0 : Fin 2) * 2560 ≤ (i 0).val ∧ (i 0).val < win0_13.index (pointOf ⟨(i 0).val, hi0⟩) (0 : Fin 2) * 2560 + 2560
    rw [e0]; show (i 0).val / 2560 * 2560 ≤ (i 0).val ∧ (i 0).val < (i 0).val / 2560 * 2560 + 2560; omega
  | ⟨1, _⟩ =>
    show win0_13.index (pointOf ⟨(i 0).val, hi0⟩) (1 : Fin 2) * 3 ≤ (i 1).val ∧ (i 1).val < win0_13.index (pointOf ⟨(i 0).val, hi0⟩) (1 : Fin 2) * 3 + 3
    rw [e1]; omega

/-! ## The two output arrays after the edge kernel -/

/-- THE FEATURE MESSAGES of all edges. -/
theorem features_final :
    (dat0 (F := Ideal) V c).arrAt 12 cfg0.N = msgHArr (entryW V c) (V c main_v7) (V c main_v15) (V c main_v30) :=
  (dat0 (F := Ideal) V c).arrAt_eq_of_cover 12 _ (fun t _ => flushed_features V c t) (features_covered)

/-- THE COORDINATE MESSAGES of all edges. -/
theorem coords_final :
    (dat0 (F := Ideal) V c).arrAt 13 cfg0.N
      = msgXArr (entryW V c) (Ideal.ofBits .f32 0x33D6BF95#32) (V c main_v7) (V c main_v15) (V c main_v30) :=
  (dat0 (F := Ideal) V c).arrAt_eq_of_cover 13 _ (fun t _ => flushed_coords V c t) (coords_covered)

end Cert.KernelIdeal.EdgeRegion

end
-- ==== Proof.NodePayload.lean ====
/-
  The node stage's body, read at an entry.

  On a block of 4000 nodes the body forms, from the block x of node features and the block s of summed messages,
      pre = (x · Wn + s · Wh) + b1        (two matrix products into zero accumulators, a bias row laid under every row)
      hid = pre · σ(pre)                  (σ the logistic function; the narrowing to bf16 is the identity on extended reals)
      out = hid · W2 + b2.
  At entry (r, j) this is the specification's node update of rows r of x and s at entry j: every product entry is the
  textbook sum over the contraction index, and every bias row reads its entry j.
-/
import proofs.«117037_j42511586296497_1_alg».proof.Proof.Gen.KernelIdeal.Skeleton
import proofs.«117037_j42511586296497_1_alg».proof.Proof.Spec
import proofs.«117037_j42511586296497_1_alg».proof.Proof.LibDot
import proofs.«117037_j42511586296497_1_alg».proof.Proof.LibRowwise

noncomputable section

namespace Cert.KernelIdeal.NodeRegion

open Cert.KernelIdeal Cert.KernelIdeal.Gen Cert.Egnn Idealize.ShloMosaic Idealize.ShloMosaic.ValueIdx
open scoped BigOperators

/-- A [4000,128] by [128,128] product into a zero accumulator, at entry (p, q): the sum over the contraction index. -/
theorem node_matmul_apply {φ₁ φ₂ : FTy} (lhs : FVec Ideal S4000x128 φ₁) (rhs : FVec Ideal S128x128 φ₂) (p : Fin 4000) (q : Fin 128) :
    matmul dot_S4000x128_S128x128_S4000x128_1_0_0_1_n_n none lhs rhs (constant (F := Ideal) S4000x128 .f32 0x00000000#32) (ix2 p q)
      = ∑ i : Fin 128, lhs (ix2 p i) * rhs (ix2 i q) :=
  Cert.LibDot.matmul_zero_apply dot_S4000x128_S128x128_S4000x128_1_0_0_1_n_n rfl rfl (fun _ _ => rfl) (fun _ _ => rfl)
    (fun _ _ => rfl) (fun _ _ => rfl) none lhs rhs p q

/-- The first layer before its activation, at entry (r, k): the two block products added, plus the bias entry k. -/
theorem node_pre_apply (x0 x1 : Vec Ideal S4000x128 .f32) (x2 x3 : Vec Ideal S128x128 .bf16) (x4 : Vec Ideal S128 .f32)
    (r : Fin 4000) (k : Fin 128) :
    addf
        (addf
          (matmul dot_S4000x128_S128x128_S4000x128_1_0_0_1_n_n none (truncf .bf16 x0 bitsLt_bf16_f32)
            (shapeCast S128x128 x2 shapeCasts_S128x128_S128x128 : FVec Ideal S128x128 .bf16)
            (constant (F := Ideal) S4000x128 .f32 0x00000000#32))
          (matmul dot_S4000x128_S128x128_S4000x128_1_0_0_1_n_n none
            (truncf .bf16 (shapeCast S4000x128 x1 shapeCasts_S4000x128_S4000x128 : FVec Ideal S4000x128 .f32) bitsLt_bf16_f32)
            (shapeCast S128x128 x3 shapeCasts_S128x128_S128x128 : FVec Ideal S128x128 .bf16)
            (constant (F := Ideal) S4000x128 .f32 0x00000000#32)))
        (broadcastTo S4000x128 (shapeCast S1x128 x4 shapeCasts_S128_S1x128) broadcasts_S1x128_S4000x128) (ix2 r k)
      = ((∑ i : Fin 128, x0 (ix2 r i) * x2 (ix2 i k)) + (∑ i : Fin 128, x1 (ix2 r i) * x3 (ix2 i k))) + x4 (ix1 k) := by
  rw [addf_apply, addf_apply, node_matmul_apply, node_matmul_apply, Cert.LibRowwise.rowUnder_apply, shapeCast_self x2,
    shapeCast_self x3, shapeCast_self x1]
  rfl

/-- The body's result at entry (r, j) is the specification's node update of row r of the two blocks at entry j. -/
theorem node_payload_apply (x0 x1 : Vec Ideal S4000x128 .f32) (x2 x3 x5 : Vec Ideal S128x128 .bf16) (x4 x6 : Vec Ideal S128 .f32)
    (r : Fin 4000) (j : Fin 128) :
    k1_pay1 (F := Ideal) x0 x1 x2 x3 x4 x5 x6 (ix2 r j)
      = nodeOut ⟨mat x2, mat x3, vec x4, mat x5, vec x6⟩ (rowOf x0 r) (rowOf x1 r) j := by
  unfold k1_pay1
  rw [addf_apply, node_matmul_apply, Cert.LibRowwise.rowUnder_apply]
  refine congrArg₂ (· + ·) (Finset.sum_congr rfl fun k _ => ?_) rfl
  rw [shapeCast_self x5]
  refine congrArg₂ (· * ·) ?_ rfl
  exact congrArg (fun z : EReal => z * Ideal.logistic z) (node_pre_apply x0 x1 x2 x3 x4 r k)

end Cert.KernelIdeal.NodeRegion

end
-- ==== Proof.NodeRegion.lean ====
/-
  From the node stage's blocks to its output array.

  The node stage runs over a grid of 10 points; at point t it reads rows 4000·t … 4000·t + 3999 of the node features and
  of the summed messages, the five weight arrays whole, and writes its result back to the same rows of the output
  array.  A block's coordinate is the block index times the block size plus the coordinate inside the block, so the
  body's result at entry (r, j) of block t is the specification's node update at entry (4000·t + r, j) of the whole
  arrays; every row lies in the block of the point r / 4000, and every point writes its block back: the output array
  ends holding the specification's node update of the whole arrays.
-/
import proofs.«117037_j42511586296497_1_alg».proof.Proof.Gen.KernelIdeal.Frame
import proofs.«117037_j42511586296497_1_alg».proof.Proof.Spec
import proofs.«117037_j42511586296497_1_alg».proof.Proof.NodePayload
import Idealize.ShloMosaic.Lib.Pipeline.Value

noncomputable section

namespace Cert.KernelIdeal.NodeRegion

open Cert.KernelIdeal Cert.KernelIdeal.Gen Cert.Egnn Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b)) (c : Dev nD)

theorem zeros2 : (![0, 0] : Fin 2 → Nat) = fun _ => 0 := funext fun a => by fin_cases a <;> rfl
theorem zeros1 : (![0] : Fin 1 → Nat) = fun _ => 0 := funext fun a => by fin_cases a; rfl

/-- The printed index maps, decided over the grid: the three row-blocked windows are at block (t, 0) at point t, the
    five weight windows at their one block. -/
theorem node_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 :=
  (by decide +kernel : ∀ t : Fin grid1.N, _)

/-- The node-feature block at point t is rows 4000·t … 4000·t + 3999 of the node features. -/
theorem node_block0_apply (t : Fin cfg1.N) (r : Fin 4000) (k : Fin 128) (hr : t.val * 4000 + r.val < 40000) :
    (iblk1 V c 0 t : Vec Ideal S4000x128 .f32) (ix2 r k)
      = (V c main_arg0 : S40000x128.Idx → EReal) (ix2 (⟨t.val * 4000 + r.val, hr⟩ : Fin 40000) k) := by
  obtain ⟨e0, e1, -⟩ := node_index_facts t
  unfold iblk1
  rw [View.read_apply]
  show V c main_arg0 _ = V c main_arg0 _
  congr 1
  funext a
  apply Fin.ext
  match a with
  | ⟨0, _⟩ => show win1_0.index t (0 : Fin 2) * 4000 + 1 * r.val = t.val * 4000 + r.val; rw [e0]; omega
  | ⟨1, _⟩ => show win1_0.index t (1 : Fin 2) * 128 + 1 * k.val = k.val; rw [e1]; omega

/-- The summed-message block at point t is rows 4000·t … 4000·t + 3999 of the summed messages. -/
theorem node_block1_apply (t : Fin cfg1.N) (r : Fin 4000) (k : Fin 128) (hr : t.val * 4000 + r.val < 40000) :
    (iblk1 V c 1 t : Vec Ideal S4000x128 .f32) (ix2 r k)
      = (V c main_v42 : S40000x128.Idx → EReal) (ix2 (⟨t.val * 4000 + r.val, hr⟩ : Fin 40000) k) := by
  obtain ⟨-, -, e0, e1, -⟩ := node_index_facts t
  unfold iblk1
  rw [View.read_apply]
  show V c main_v42 _ = V c main_v42 _
  congr 1
  funext a
  apply Fin.ext
  match a with
  | ⟨0, _⟩ => show win1_1.index t (0 : Fin 2) * 4000 + 1 * r.val = t.val * 4000 + r.val; rw [e0]; omega
  | ⟨1, _⟩ => show win1_1.index t (1 : Fin 2) * 128 + 1 * k.val = k.val; rw [e1]; omega

/-- Each weight window's one block is its whole array. -/
theorem node_block2_eq (t : Fin cfg1.N) : (iblk1 V c 2 t : Vec Ideal S128x128 .bf16) = V c main_v55 := by
  obtain ⟨-, -, -, -, -, -, e0, e1, -⟩ := node_index_facts t
  unfold iblk1
  funext y
  rw [View.read_apply]
  show V c main_v55 _ = V c main_v55 y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

theorem node_block3_eq (t : Fin cfg1.N) : (iblk1 V c 3 t : Vec Ideal S128x128 .bf16) = V c main_v57 := by
  obtain ⟨-, -, -, -, -, -, -, -, e0, e1, -⟩ := node_index_facts t
  unfold iblk1
  funext y
  rw [View.read_apply]
  show V c main_v57 _ = V c main_v57 y
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem node_block4_eq (t : Fin cfg1.N) : (iblk1 V c 4 t : Vec Ideal S128 .f32) = V c main_arg9 := by
  obtain ⟨-, -, -, -, -, -, -, -, -, -, e0, -⟩ := node_index_facts t
  unfold iblk1
  funext y
  rw [View.read_apply]
  show V c main_arg9 _ = V c main_arg9 y
  congr 1
  funext a
  apply Fin.ext
  match a with
  | ⟨0, _⟩ => show win1_4.index t (0 : Fin 1) * 128 + 1 * (y 0).val = (y 0).val; rw [e0]; omega

theorem node_block5_eq (t : Fin cfg1.N) : (iblk1 V c 5 t : Vec Ideal S128x128 .bf16) = V c main_v58 := by
  obtain ⟨-, -, -, -, -, -, -, -, -, -, -, e0, e1, -⟩ := node_index_facts t
  unfold iblk1
  funext y
  rw [View.read_apply]
  show V c main_v58 _ = V c main_v58 y
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

theorem node_block6_eq (t : Fin cfg1.N) : (iblk1 V c 6 t : Vec Ideal S128 .f32) = V c main_arg11 := by
  obtain ⟨-, -, -, -, -, -, -, -, -, -, -, -, -, e0⟩ := node_index_facts t
  unfold iblk1
  funext y
  rw [View.read_apply]
  show V c main_arg11 _ = V c main_arg11 y
  congr 1
  funext a
  apply Fin.ext
  match a with
  | ⟨0, _⟩ => show win1_6.index t (0 : Fin 1) * 128 + 1 * (y 0).val = (y 0).val; rw [e0]; omega

/-- The body's result on blocks that are rows 4000·t … 4000·t + 3999 of whole arrays X and S, at an entry y of the block:
    the node update of X and S at the entry i of the whole array that y is. -/
theorem node_payload_block (X S : S40000x128.Idx → EReal) (x0 x1 : Vec Ideal S4000x128 .f32)
    (x2 x3 x5 : Vec Ideal S128x128 .bf16) (x4 x6 : Vec Ideal S128 .f32) (t : ℕ) (ht : t * 4000 + 4000 ≤ 40000)
    (h0 : ∀ (r : Fin 4000) (k : Fin 128),
      x0 (ix2 r k) = X (ix2 (⟨t * 4000 + r.val, by have := r.isLt; omega⟩ : Fin 40000) k))
    (h1 : ∀ (r : Fin 4000) (k : Fin 128),
      x1 (ix2 r k) = S (ix2 (⟨t * 4000 + r.val, by have := r.isLt; omega⟩ : Fin 40000) k))
    (y : S4000x128.Idx) (i : S40000x128.Idx) (hi0 : (i 0).val = t * 4000 + (y 0).val) (hi1 : (i 1).val = (y 1).val) :
    k1_pay1 (F := Ideal) x0 x1 x2 x3 x4 x5 x6 y = nodeOutArr ⟨mat x2, mat x3, vec x4, mat x5, vec x6⟩ X S i := by
  obtain ⟨r, k, rfl⟩ : ∃ (r : Fin 4000) (k : Fin 128), y = ix2 r k := ⟨y 0, y 1, eq_ix2 y⟩
  have hi : i = ix2 (⟨t * 4000 + r.val, by have := r.isLt; omega⟩ : Fin 40000) k := funext fun a => Fin.ext (by
    match a with
    | ⟨0, _⟩ => exact hi0
    | ⟨1, _⟩ => exact hi1)
  have e0 : rowOf x0 r = rowOf X (⟨t * 4000 + r.val, by have := r.isLt; omega⟩ : Fin 40000) := funext fun k' => h0 r k'
  have e1 : rowOf x1 r = rowOf S (⟨t * 4000 + r.val, by have := r.isLt; omega⟩ : Fin 40000) := funext fun k' => h1 r k'
  rw [hi, node_payload_apply, nodeOutArr_apply, e0, e1]

/-- What point t writes back is block t of the node update of the whole arrays as the region finds them. -/
theorem node_flushed_eq (t : Fin cfg1.N) :
    (dat1 (F := Ideal) V c).flushed 7 t
      = ((cfg1.win 7).blk t).view.read (Elt Ideal)
          (nodeOutArr ⟨mat (V c main_v55), mat (V c main_v57), vec (V c main_arg9), mat (V c main_v58), vec (V c main_arg11)⟩
            (V c main_arg0) (V c main_v42)) := by
  have hN : cfg1.N = 10 := N_1
  have htl : t.val < 10 := hN ▸ t.isLt
  obtain ⟨-, -, -, -, e0, e1, -⟩ := node_index_facts t
  show (cfg1.win 7).cut (grid1.coords t) ((dat1 V c).after 7 t) = _
  rw [after1_7]
  unfold out1_7
  rw [View.canon_unit_zero zeros2]
  simp only [View.ld_unit_zero (S := S4000x128) zeros2, View.ld_unit_zero (S := S128x128) zeros2,
    View.ld_unit_zero (S := S128) zeros1]
  rw [node_block2_eq, node_block3_eq, node_block4_eq, node_block5_eq, node_block6_eq]
  funext y
  rw [View.read_apply]
  refine node_payload_block (V c main_arg0) (V c main_v42) _ _ _ _ _ _ _ t.val (by omega)
    (fun r k => node_block0_apply V c t r k _) (fun r k => node_block1_apply V c t r k _) _ _ ?_ ?_
  · show win1_7.index t (0 : Fin 2) * 4000 + 1 * (y 0).val = t.val * 4000 + (y 0).val
    rw [e0]; omega
  · show win1_7.index t (1 : Fin 2) * 128 + 1 * (y 1).val = (y 1).val
    rw [e1]; omega

/-- An entry of the output array is in point t's block iff each coordinate is in the block's range on its axis. -/
theorem node_mem_block (t : Fin cfg1.N) (i : S40000x128.Idx) :
    i ∈ ((cfg1.win 7).blk t).view.set
      ↔ ∀ a : Fin 2, win1_7.index t a * S4000x128.size a ≤ (i a).val
          ∧ (i a).val < win1_7.index t a * S4000x128.size a + S4000x128.size a := by
  show i ∈ ((View.whole main_v59).slice (win1_7.rect t)).set ↔ _
  rw [View.set_slice_whole, Rect.mem_set_unit]
  exact Iff.rfl

/-- Every entry of the output array is in the block of a point that writes it back: row r in that of point r / 4000. -/
theorem node_cover (i : S40000x128.Idx) :
    ∃ t : Fin cfg1.N, (cfg1.win 7).flush t = true ∧ i ∈ ((cfg1.win 7).blk t).view.set := by
  have hi0 : (i 0).val < 40000 := (i 0).isLt
  have hi1 : (i 1).val < 128 := (i 1).isLt
  have hN : cfg1.N = 10 := N_1
  refine ⟨⟨(i 0).val / 4000, by rw [hN]; omega⟩, flush1_7 _, ?_⟩
  obtain ⟨-, -, -, -, e0, e1, -⟩ := node_index_facts ⟨(i 0).val / 4000, by rw [hN]; omega⟩
  rw [node_mem_block]
  intro a
  match a with
  | ⟨0, _⟩ =>
    show win1_7.index _ (0 : Fin 2) * 4000 ≤ (i 0).val ∧ (i 0).val < win1_7.index _ (0 : Fin 2) * 4000 + 4000
    rw [e0]; show (i 0).val / 4000 * 4000 ≤ (i 0).val ∧ (i 0).val < (i 0).val / 4000 * 4000 + 4000; omega
  | ⟨1, _⟩ =>
    show win1_7.index _ (1 : Fin 2) * 128 ≤ (i 1).val ∧ (i 1).val < win1_7.index _ (1 : Fin 2) * 128 + 128
    rw [e1]; omega

/-- The output array after the region: the node update of the node features and the summed messages as the region finds
    them, with the weights as the region finds them. -/
theorem node_final :
    (dat1 (F := Ideal) V c).arrAt 7 cfg1.N
      = nodeOutArr ⟨mat (V c main_v55), mat (V c main_v57), vec (V c main_arg9), mat (V c main_v58), vec (V c main_arg11)⟩
          (V c main_arg0) (V c main_v42) :=
  (dat1 (F := Ideal) V c).arrAt_eq_of_cover 7 _ (fun t _ => node_flushed_eq V c t) node_cover

end Cert.KernelIdeal.NodeRegion

end
-- ==== Proof.LibSigmoid.lean ====
/-
  The logistic function on the extended reals, in the three spellings a program may use.

  * `half_tanh`: for EVERY extended real d, (1/2) · tanh((1/2) · d) + 1/2 = 1 / (1 + e^(-d)).
    On a real d this is the identity tanh(d/2) = (e^(d/2) - e^(-d/2)) / (e^(d/2) + e^(-d/2)) cleared of
    denominators; at -∞ both sides are 0 (tanh -∞ = -1, 1 / (1 + ∞) = 0) and at +∞ both are 1.
  * `logistic_nonneg_real`: 1 / (1 + e^(-x)) is a real number >= 0 for every extended real x
    (0 at -∞, 1 at +∞, a positive real in between).
  * `pow_half_mul_self`: for a real s >= 0, s^(1/2) · s^(1/2) = s.
  * the f32 words 0x3F000000 and 0x3F800000 denote the reals 1/2 and 1.
  Library imports only.
-/
import Idealize.ShloMosaic.PureOps.Ideal

noncomputable section

namespace Cert.LibSigmoid

open Idealize.ShloMosaic

/-- The f32 word of 0.5 denotes the real 1/2. -/
theorem ofBits_half : Ideal.ofBits .f32 0x3F000000#32 = ((1 / 2 : ℝ) : EReal) := by
  simp [Ideal.ofBits, Ideal.ieee, -EReal.coe_mul]; norm_num

/-- The f32 word of 1.0 denotes 1. -/
theorem ofBits_one : Ideal.ofBits .f32 0x3F800000#32 = (1 : EReal) := by
  simp [Ideal.ofBits, Ideal.ieee, -EReal.coe_mul]; norm_num

/-- On the reals: (1/2) tanh(r/2) + 1/2 = 1 / (1 + e^(-r)). With a = e^(r/2) > 0: tanh(r/2) = (a - 1/a)/(a + 1/a) and
    e^(-r) = (1/a)^2, so both sides are a^2 / (a^2 + 1). -/
theorem real_half_tanh (r : ℝ) : (1 / 2 : ℝ) * Real.tanh ((1 / 2 : ℝ) * r) + 1 / 2 = (1 + Real.exp (-r))⁻¹ := by
  have ha : 0 < Real.exp ((1 / 2 : ℝ) * r) := Real.exp_pos _
  have hneg : Real.exp (-((1 / 2 : ℝ) * r)) = (Real.exp ((1 / 2 : ℝ) * r))⁻¹ := Real.exp_neg _
  have hr : Real.exp (-r) = (Real.exp ((1 / 2 : ℝ) * r))⁻¹ * (Real.exp ((1 / 2 : ℝ) * r))⁻¹ := by
    rw [← hneg, ← Real.exp_add]; congr 1; ring
  rw [Real.tanh_eq_sinh_div_cosh, Real.sinh_eq, Real.cosh_eq, hneg, hr]
  generalize Real.exp ((1 / 2 : ℝ) * r) = a at ha
  have ha' : a ≠ 0 := ne_of_gt ha
  field_simp
  ring

/-- (1/2) · tanh((1/2) · d) + 1/2 = 1 / (1 + e^(-d)) at every extended real d. -/
theorem half_tanh (d : EReal) :
    ((1 / 2 : ℝ) : EReal) * Ideal.tanh (((1 / 2 : ℝ) : EReal) * d) + ((1 / 2 : ℝ) : EReal) = Ideal.logistic d := by
  induction d using EReal.rec with
  | bot =>
    rw [EReal.coe_mul_bot_of_pos (by norm_num : (0 : ℝ) < 1 / 2), Ideal.tanh_bot, Ideal.logistic_bot]
    rw [show (-1 : EReal) = ((-1 : ℝ) : EReal) by norm_num, ← EReal.coe_mul, ← EReal.coe_add]
    norm_num
  | top =>
    rw [EReal.coe_mul_top_of_pos (by norm_num : (0 : ℝ) < 1 / 2), Ideal.tanh_top, Ideal.logistic_top, mul_one,
      ← EReal.coe_add]
    norm_num
  | coe r =>
    rw [← EReal.coe_mul, Ideal.tanh_coe, ← EReal.coe_mul, ← EReal.coe_add, Ideal.logistic_coe, real_half_tanh]

/-- 1 / (1 + e^(-x)) is a real number >= 0, whatever the extended real x. -/
theorem logistic_nonneg_real (x : EReal) : ∃ s : ℝ, 0 ≤ s ∧ Ideal.logistic x = (s : EReal) := by
  induction x using EReal.rec with
  | bot => exact ⟨0, le_refl _, by rw [Ideal.logistic_bot]; rfl⟩
  | top => exact ⟨1, zero_le_one, by rw [Ideal.logistic_top]; rfl⟩
  | coe r =>
    refine ⟨(1 + Real.exp (-r))⁻¹, inv_nonneg.mpr ?_, Ideal.logistic_coe r⟩
    have := Real.exp_pos (-r); linarith

/-- The square of the square root: s^(1/2) · s^(1/2) = s for a real s >= 0, as extended reals. -/
theorem pow_half_mul_self {s : ℝ} (hs : 0 ≤ s) :
    Ideal.pow (s : EReal) ((1 / 2 : ℝ) : EReal) * Ideal.pow (s : EReal) ((1 / 2 : ℝ) : EReal) = (s : EReal) := by
  rw [Ideal.pow_coe_coe, ← EReal.coe_mul]
  congr 1
  show s ^ (1 / 2 : ℝ) * s ^ (1 / 2 : ℝ) = s
  rw [← Real.rpow_add_of_nonneg hs (by norm_num) (by norm_num)]
  norm_num

end Cert.LibSigmoid

end
-- ==== Proof.RefEdge.lean ====
/-
  The reference program's edge stage, read entry by entry.

  For an edge e the program gathers the features a = node_feat[src e], b = node_feat[dst e] and forms the coordinate
  difference d = coord[src e] - coord[dst e].  It lays (a, b, |d|) out as one row of 257 numbers and multiplies by the
  [257,128] matrix, which is the sum of the three block products; it adds the bias, applies silu (printed as
  t · (1 / (1 + e^(-t)))), a second dense layer and silu: this is the feature message.  A third dense layer, silu and
  a product with a [128,1] column give the scalar that weights the direction d / (|d| + ε): the coordinate message.
  Every step is an identity between the program's stage at an index and the specification's entry; only the
  associativity and commutativity of + (to cut the 257-term sum into its blocks) are used.
-/
import proofs.«117037_j42511586296497_1_alg».proof.Proof.Gen.ReferenceIdeal.Read
import proofs.«117037_j42511586296497_1_alg».proof.Proof.Spec
import proofs.«117037_j42511586296497_1_alg».proof.Proof.LibSigmoid

noncomputable section

namespace Cert.RefEdge

open Cert.ReferenceIdeal Cert.ReferenceIdeal.Read Cert.Egnn Idealize.ShloMosaic Idealize.ShloMosaic.ValueIdx
open scoped BigOperators

/-! ## Generic pieces -/

/-- silu as the program prints it: t · (1 / (1 + e^(-t))), the two ones being the f32 word of 1.0. -/
theorem silu_printed (t : EReal) :
    t * Ideal.div (Ideal.ofBits .f32 0x3F800000#32) (Ideal.ofBits .f32 0x3F800000#32 + Ideal.exp (-t)) = silu t := by
  rw [Cert.LibSigmoid.ofBits_one]; rfl

variable {α : Type}

/-- Three matrices [n,128], [n,128], [n,1] laid side by side: column i < 128 is column i of the first. -/
theorem concat3_first {n : ℕ} (A B : (⟨2, ![n, 128]⟩ : Shape).Idx → α) (C : (⟨2, ![n, 1]⟩ : Shape).Idx → α)
    (hc : Shape.Concatenates [(⟨2, ![n, 128]⟩ : Shape), ⟨2, ![n, 128]⟩, ⟨2, ![n, 1]⟩] ⟨2, ![n, 257]⟩ 1)
    (e : Fin n) (i : Fin 128) (q : Fin 257) (hq : q.val = i.val) :
    concatenate ⟨2, ![n, 257]⟩ 1 [⟨⟨2, ![n, 128]⟩, A⟩, ⟨⟨2, ![n, 128]⟩, B⟩, ⟨⟨2, ![n, 1]⟩, C⟩] hc (ix2 e q) = A (ix2 e i) :=
  concatenate_apply_piece (t := ⟨2, ![n, 257]⟩) 1
    ([⟨⟨2, ![n, 128]⟩, A⟩, ⟨⟨2, ![n, 128]⟩, B⟩, ⟨⟨2, ![n, 1]⟩, C⟩] : List ((s : Shape) × (s.Idx → α))) hc (ix2 e q)
    0 (by show 0 < 3; omega) ⟨2, ![n, 128]⟩ A rfl rfl 0 rfl (ix2 e i)
    (fun b hb => by
      match b, hb with
      | ⟨0, _⟩, _ => rfl
      | ⟨1, _⟩, hb => exact (hb (Fin.ext rfl)).elim)
    (by show 0 + i.val = q.val; omega)

/-- Column 128 + i is column i of the second. -/
theorem concat3_second {n : ℕ} (A B : (⟨2, ![n, 128]⟩ : Shape).Idx → α) (C : (⟨2, ![n, 1]⟩ : Shape).Idx → α)
    (hc : Shape.Concatenates [(⟨2, ![n, 128]⟩ : Shape), ⟨2, ![n, 128]⟩, ⟨2, ![n, 1]⟩] ⟨2, ![n, 257]⟩ 1)
    (e : Fin n) (i : Fin 128) (q : Fin 257) (hq : q.val = 128 + i.val) :
    concatenate ⟨2, ![n, 257]⟩ 1 [⟨⟨2, ![n, 128]⟩, A⟩, ⟨⟨2, ![n, 128]⟩, B⟩, ⟨⟨2, ![n, 1]⟩, C⟩] hc (ix2 e q) = B (ix2 e i) :=
  concatenate_apply_piece (t := ⟨2, ![n, 257]⟩) 1
    ([⟨⟨2, ![n, 128]⟩, A⟩, ⟨⟨2, ![n, 128]⟩, B⟩, ⟨⟨2, ![n, 1]⟩, C⟩] : List ((s : Shape) × (s.Idx → α))) hc (ix2 e q)
    1 (by show 1 < 3; omega) ⟨2, ![n, 128]⟩ B rfl rfl 128 rfl (ix2 e i)
    (fun b hb => by
      match b, hb with
      | ⟨0, _⟩, _ => rfl
      | ⟨1, _⟩, hb => exact (hb (Fin.ext rfl)).elim)
    (by show 128 + i.val = q.val; omega)

/-- Column 256 is the single column of the third. -/
theorem concat3_third {n : ℕ} (A B : (⟨2, ![n, 128]⟩ : Shape).Idx → α) (C : (⟨2, ![n, 1]⟩ : Shape).Idx → α)
    (hc : Shape.Concatenates [(⟨2, ![n, 128]⟩ : Shape), ⟨2, ![n, 128]⟩, ⟨2, ![n, 1]⟩] ⟨2, ![n, 257]⟩ 1)
    (e : Fin n) (q : Fin 257) (hq : q.val = 256) :
    concatenate ⟨2, ![n, 257]⟩ 1 [⟨⟨2, ![n, 128]⟩, A⟩, ⟨⟨2, ![n, 128]⟩, B⟩, ⟨⟨2, ![n, 1]⟩, C⟩] hc (ix2 e q) = C (ix2 e (0 : Fin 1)) :=
  concatenate_apply_piece (t := ⟨2, ![n, 257]⟩) 1
    ([⟨⟨2, ![n, 128]⟩, A⟩, ⟨⟨2, ![n, 128]⟩, B⟩, ⟨⟨2, ![n, 1]⟩, C⟩] : List ((s : Shape) × (s.Idx → α))) hc (ix2 e q)
    2 (by show 2 < 3; omega) ⟨2, ![n, 1]⟩ C rfl rfl 256 rfl (ix2 e (0 : Fin 1))
    (fun b hb => by
      match b, hb with
      | ⟨0, _⟩, _ => rfl
      | ⟨1, _⟩, hb => exact (hb (Fin.ext rfl)).elim)
    (by show 256 + 0 = q.val; omega)

/-! ## The program's stages at an entry -/

variable (x0 : (⟨S40000x128, .f32⟩ : BufTy).Contents (Elt Ideal)) (x1 : (⟨S40000x3, .f32⟩ : BufTy).Contents (Elt Ideal))
  (x2 x3 : (⟨S640000, .i32⟩ : BufTy).Contents (Elt Ideal)) (x4 : (⟨S257x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal)) (x12 : (⟨S128x128, .f32⟩ : BufTy).Contents (Elt Ideal))
  (x13 : (⟨S128, .f32⟩ : BufTy).Contents (Elt Ideal)) (x14 : (⟨S128x1, .f32⟩ : BufTy).Contents (Elt Ideal))

/-- The length of the coordinate difference of edge e: the square root of the sum of its three squares. -/
theorem dist_at (e : Fin 640000) (z : Fin 1) :
    val_main_v18 (F := Ideal) x1 x2 x3 (ix2 e z) = norm3 (rowOf (val_main_v14 (F := Ideal) x1 x2 x3) e) := by
  rw [val_main_v18_apply, val_main_v17_apply, val_main_v16_apply, val_main_cst_apply]
  show Ideal.sqrt (Ideal.ofBits .f32 0x00000000#32 + _) = Ideal.sqrt _
  rw [Ideal.ofBits_zero_f32, zero_add]
  refine congrArg Ideal.sqrt (Finset.sum_congr rfl fun k _ => ?_)
  rw [val_main_v15_apply]
  have hi : idx_main_v16 (idx_main_v17 (ix2 e z)) k = ix2 e k :=
    funext fun a => Fin.ext (by match a with | ⟨0, _⟩ => rfl | ⟨1, _⟩ => rfl)
  rw [hi]
  rfl

/-- The row (a, b, |d|) of edge e: columns 0 … 127 are the source node's features. -/
theorem feat_first (e : Fin 640000) (i : Fin 128) :
    val_main_v37 (F := Ideal) x0 x1 x2 x3 (ix2 e (⟨i.val, by have := i.isLt; omega⟩ : Fin 257))
      = val_main_v29 (F := Ideal) x0 x2 (ix2 e i) := by
  unfold val_main_v37
  exact concat3_first _ _ _ _ e i _ rfl

/-- Columns 128 … 255 are the target node's features. -/
theorem feat_second (e : Fin 640000) (i : Fin 128) :
    val_main_v37 (F := Ideal) x0 x1 x2 x3 (ix2 e (⟨128 + i.val, by have := i.isLt; omega⟩ : Fin 257))
      = val_main_v36 (F := Ideal) x0 x3 (ix2 e i) := by
  unfold val_main_v37
  exact concat3_second _ _ _ _ e i _ rfl

/-- Column 256 is the length of the coordinate difference. -/
theorem feat_third (e : Fin 640000) :
    val_main_v37 (F := Ideal) x0 x1 x2 x3 (ix2 e (⟨256, by omega⟩ : Fin 257))
      = norm3 (rowOf (val_main_v14 (F := Ideal) x1 x2 x3) e) := by
  unfold val_main_v37
  exact (concat3_third _ _ _ _ e _ rfl).trans (dist_at x1 x2 x3 e 0)

/-- The first product at (e, k): the 257-term sum over the row (a, b, |d|). -/
theorem prod1_at (e : Fin 640000) (k : Fin 128) :
    val_main_v38 (F := Ideal) x0 x1 x2 x3 x4 (ix2 e k)
      = ∑ q : Fin 257, val_main_v37 (F := Ideal) x0 x1 x2 x3 (ix2 e q) * x4 (ix2 q k) := by
  refine (val_main_v38_apply x0 x1 x2 x3 x4 (ix2 e k)).trans (Finset.sum_congr rfl fun q _ => ?_)
  have hl : lidx_main_v38 (ix2 e k) q = ix2 e q :=
    funext fun a => Fin.ext (by match a with | ⟨0, _⟩ => rfl | ⟨1, _⟩ => rfl)
  have hr : ridx_main_v38 (ix2 e k) q = ix2 q k :=
    funext fun a => Fin.ext (by match a with | ⟨0, _⟩ => rfl | ⟨1, _⟩ => rfl)
  rw [hl, hr]

/-- A [128] bias cast to a row and broadcast down the rows, read at (e, k). -/
theorem bias1_at (e : Fin 640000) (k : Fin 128) : val_main_v40 (F := Ideal) x5 (ix2 e k) = vec x5 k := by
  rw [val_main_v40_apply, val_main_v39_apply]
  exact congrArg x5 (funext fun a => Fin.ext (by match a with | ⟨0, _⟩ => rfl))

/-- The first layer before its activation, in the three blocks of the [257,128] matrix. -/
theorem pre1_at (e : Fin 640000) (k : Fin 128) :
    val_main_v41 (F := Ideal) x0 x1 x2 x3 x4 x5 (ix2 e k)
      = (((∑ i, rowOf (val_main_v29 (F := Ideal) x0 x2) e i * rowsFrom 0 (by omega) x4 i k)
          + (∑ i, rowOf (val_main_v36 (F := Ideal) x0 x3) e i * rowsFrom 128 (by omega) x4 i k))
          + norm3 (rowOf (val_main_v14 (F := Ideal) x1 x2 x3) e) * x4 (ix2 (⟨256, by omega⟩ : Fin 257) k))
        + vec x5 k := by
  rw [val_main_v41_apply, prod1_at, bias1_at]
  show (∑ q : Fin 257, _) + _ = _
  rw [sum_three_blocks]
  refine congrArg (· + vec x5 k) ?_
  refine congrArg₂ (· + ·) (congrArg₂ (· + ·) (Finset.sum_congr rfl fun i _ => ?_) (Finset.sum_congr rfl fun i _ => ?_)) ?_
  · rw [feat_first]
    exact congrArg (fun t : Fin 257 => val_main_v29 (F := Ideal) x0 x2 (ix2 e i) * x4 (ix2 t k)) (Fin.ext (Nat.zero_add i.val).symm)
  · rw [feat_second]
    rfl
  · rw [feat_third]

/-- silu after the first layer. -/
theorem act1_at (i : S640000x128.Idx) :
    val_main_v42 (F := Ideal) x0 x1 x2 x3 x4 x5 i = silu (val_main_v41 (F := Ideal) x0 x1 x2 x3 x4 x5 i) := by
  rw [val_main_v42_apply, val_main_call0_v5_apply, val_main_call0_v4_apply, val_main_call0_cst_0_apply,
    val_main_call0_v3_apply, val_main_call0_v2_apply, val_main_call0_cst_apply, val_main_call0_v1_apply,
    val_main_call0_v0_apply]
  exact silu_printed _

/-- The first hidden layer of edge e at entry k. -/
theorem hidden1_at (e : Fin 640000) (k : Fin 128) :
    val_main_v42 (F := Ideal) x0 x1 x2 x3 x4 x5 (ix2 e k)
      = hidden1 (edgeWOf x4 x5 x6 x7 x12 x13 x14) (rowOf (val_main_v29 (F := Ideal) x0 x2) e)
          (rowOf (val_main_v36 (F := Ideal) x0 x3) e) (rowOf (val_main_v14 (F := Ideal) x1 x2 x3) e) k := by
  rw [act1_at, pre1_at]
  rfl

/-- The second layer before its activation. -/
theorem pre2_at (e : Fin 640000) (j : Fin 128) :
    val_main_v46 (F := Ideal) x0 x1 x2 x3 x4 x5 x6 x7 (ix2 e j)
      = dense (fun k => val_main_v42 (F := Ideal) x0 x1 x2 x3 x4 x5 (ix2 e k)) (mat x6) (vec x7) j := by
  rw [val_main_v46_apply, val_main_v43_apply, val_main_v45_apply, val_main_v44_apply]
  show (∑ k : Fin 128, _) + _ = (∑ k : Fin 128, _) + _
  refine congrArg₂ (· + ·) (Finset.sum_congr rfl fun k _ => ?_) ?_
  · have hl : lidx_main_v43 (ix2 e j) k = ix2 e k :=
      funext fun a => Fin.ext (by match a with | ⟨0, _⟩ => rfl | ⟨1, _⟩ => rfl)
    have hr : ridx_main_v43 (ix2 e j) k = ix2 k j :=
      funext fun a => Fin.ext (by match a with | ⟨0, _⟩ => rfl | ⟨1, _⟩ => rfl)
    rw [hl, hr]
    rfl
  · exact congrArg x7 (funext fun a => Fin.ext (by match a with | ⟨0, _⟩ => rfl))

/-- silu after the second layer. -/
theorem act2_at (i : S640000x128.Idx) :
    val_main_v47 (F := Ideal) x0 x1 x2 x3 x4 x5 x6 x7 i = silu (val_main_v46 (F := Ideal) x0 x1 x2 x3 x4 x5 x6 x7 i) := by
  rw [val_main_v47_apply, val_main_call1_v5_apply, val_main_call1_v4_apply, val_main_call1_cst_0_apply,
    val_main_call1_v3_apply, val_main_call1_v2_apply, val_main_call1_cst_apply, val_main_call1_v1_apply,
    val_main_call1_v0_apply]
  exact silu_printed _

/-- The feature message of edge e at entry j. -/
theorem msgH_at (e : Fin 640000) (j : Fin 128) :
    val_main_v47 (F := Ideal) x0 x1 x2 x3 x4 x5 x6 x7 (ix2 e j)
      = msgH (edgeWOf x4 x5 x6 x7 x12 x13 x14) (rowOf (val_main_v29 (F := Ideal) x0 x2) e)
          (rowOf (val_main_v36 (F := Ideal) x0 x3) e) (rowOf (val_main_v14 (F := Ideal) x1 x2 x3) e) j := by
  rw [act2_at, pre2_at]
  exact congrArg (fun f : Fin 128 → EReal => silu (dense f (mat x6) (vec x7) j))
    (funext fun k => hidden1_at x0 x1 x2 x3 x4 x5 x6 x7 x12 x13 x14 e k)

/-- **The reference's feature messages are the specification's.** -/
theorem ref_msgH :
    val_main_v47 (F := Ideal) x0 x1 x2 x3 x4 x5 x6 x7
      = msgHArr (edgeWOf x4 x5 x6 x7 x12 x13 x14) (val_main_v29 (F := Ideal) x0 x2) (val_main_v36 (F := Ideal) x0 x3)
          (val_main_v14 (F := Ideal) x1 x2 x3) := by
  funext i
  obtain ⟨e, j, rfl⟩ : ∃ (e : Fin 640000) (j : Fin 128), i = ix2 e j := ⟨i 0, i 1, eq_ix2 i⟩
  exact msgH_at x0 x1 x2 x3 x4 x5 x6 x7 x12 x13 x14 e j

/-! ## The coordinate message -/

/-- The third layer before its activation. -/
theorem pre3_at (e : Fin 640000) (k : Fin 128) :
    val_main_v51 (F := Ideal) x0 x1 x2 x3 x4 x5 x6 x7 x12 x13 (ix2 e k)
      = dense (fun j => val_main_v47 (F := Ideal) x0 x1 x2 x3 x4 x5 x6 x7 (ix2 e j)) (mat x12) (vec x13) k := by
  rw [val_main_v51_apply, val_main_v48_apply, val_main_v50_apply, val_main_v49_apply]
  show (∑ j : Fin 128, _) + _ = (∑ j : Fin 128, _) + _
  refine congrArg₂ (· + ·) (Finset.sum_congr rfl fun j _ => ?_) ?_
  · have hl : lidx_main_v48 (ix2 e k) j = ix2 e j :=
      funext fun a => Fin.ext (by match a with | ⟨0, _⟩ => rfl | ⟨1, _⟩ => rfl)
    have hr : ridx_main_v48 (ix2 e k) j = ix2 j k :=
      funext fun a => Fin.ext (by match a with | ⟨0, _⟩ => rfl | ⟨1, _⟩ => rfl)
    rw [hl, hr]
    rfl
  · exact congrArg x13 (funext fun a => Fin.ext (by match a with | ⟨0, _⟩ => rfl))

/-- silu after the third layer. -/
theorem act3_at (i : S640000x128.Idx) :
    val_main_v52 (F := Ideal) x0 x1 x2 x3 x4 x5 x6 x7 x12 x13 i
      = silu (val_main_v51 (F := Ideal) x0 x1 x2 x3 x4 x5 x6 x7 x12 x13 i) := by
  rw [val_main_v52_apply, val_main_call2_v5_apply, val_main_call2_v4_apply, val_main_call2_cst_0_apply,
    val_main_call2_v3_apply, val_main_call2_v2_apply, val_main_call2_cst_apply, val_main_call2_v1_apply,
    val_main_call2_v0_apply]
  exact silu_printed _

/-- The scalar weight of edge e's direction. -/
theorem coef_at (e : Fin 640000) (z : Fin 1) :
    val_main_v53 (F := Ideal) x0 x1 x2 x3 x4 x5 x6 x7 x12 x13 x14 (ix2 e z)
      = coef (edgeWOf x4 x5 x6 x7 x12 x13 x14) (rowOf (val_main_v29 (F := Ideal) x0 x2) e)
          (rowOf (val_main_v36 (F := Ideal) x0 x3) e) (rowOf (val_main_v14 (F := Ideal) x1 x2 x3) e) := by
  obtain rfl : z = 0 := Subsingleton.elim _ _
  rw [val_main_v53_apply]
  show (∑ k : Fin 128, _) = (∑ k : Fin 128, _)
  refine Finset.sum_congr rfl fun k _ => ?_
  have hl : lidx_main_v53 (ix2 e (0 : Fin 1)) k = ix2 e k :=
    funext fun a => Fin.ext (by match a with | ⟨0, _⟩ => rfl | ⟨1, _⟩ => rfl)
  have hr : ridx_main_v53 (ix2 e (0 : Fin 1)) k = ix2 k (0 : Fin 1) :=
    funext fun a => Fin.ext (by match a with | ⟨0, _⟩ => rfl | ⟨1, _⟩ => rfl)
  rw [hl, hr, act3_at, pre3_at]
  exact congrArg (fun f : Fin 128 → EReal => silu (dense f (mat x12) (vec x13) k) * x14 (ix2 k (0 : Fin 1)))
    (funext fun j => msgH_at x0 x1 x2 x3 x4 x5 x6 x7 x12 x13 x14 e j)

/-- The direction of edge e at coordinate q: d q / (|d| + ε), ε the f32 word of 1e-7. -/
theorem dir_at (e : Fin 640000) (q : Fin 3) :
    val_main_v22 (F := Ideal) x1 x2 x3 (ix2 e q)
      = Ideal.div (rowOf (val_main_v14 (F := Ideal) x1 x2 x3) e q)
          (norm3 (rowOf (val_main_v14 (F := Ideal) x1 x2 x3) e) + Ideal.ofBits .f32 0x33D6BF95#32) := by
  rw [val_main_v22_apply, val_main_v21_apply]
  have hi : idx_main_v21 (ix2 e q) = ix2 e (0 : Fin 1) :=
    funext fun a => Fin.ext (by match a with | ⟨0, _⟩ => rfl | ⟨1, _⟩ => rfl)
  rw [hi, val_main_v20_apply, dist_at, val_main_v19_apply, val_main_cst_3_apply]
  rfl

/-- The coordinate message of edge e at coordinate q. -/
theorem msgX_at (e : Fin 640000) (q : Fin 3) :
    val_main_v55 (F := Ideal) x0 x1 x2 x3 x4 x5 x6 x7 x12 x13 x14 (ix2 e q)
      = msgX (edgeWOf x4 x5 x6 x7 x12 x13 x14) (Ideal.ofBits .f32 0x33D6BF95#32) (rowOf (val_main_v29 (F := Ideal) x0 x2) e)
          (rowOf (val_main_v36 (F := Ideal) x0 x3) e) (rowOf (val_main_v14 (F := Ideal) x1 x2 x3) e) q := by
  rw [val_main_v55_apply, val_main_v54_apply]
  have hi : idx_main_v54 (ix2 e q) = ix2 e (0 : Fin 1) :=
    funext fun a => Fin.ext (by match a with | ⟨0, _⟩ => rfl | ⟨1, _⟩ => rfl)
  rw [hi, coef_at, dir_at]
  rfl

/-- **The reference's coordinate messages are the specification's.** -/
theorem ref_msgX :
    val_main_v55 (F := Ideal) x0 x1 x2 x3 x4 x5 x6 x7 x12 x13 x14
      = msgXArr (edgeWOf x4 x5 x6 x7 x12 x13 x14) (Ideal.ofBits .f32 0x33D6BF95#32) (val_main_v29 (F := Ideal) x0 x2)
          (val_main_v36 (F := Ideal) x0 x3) (val_main_v14 (F := Ideal) x1 x2 x3) := by
  funext i
  obtain ⟨e, q, rfl⟩ : ∃ (e : Fin 640000) (q : Fin 3), i = ix2 e q := ⟨i 0, i 1, eq_ix2 i⟩
  exact msgX_at x0 x1 x2 x3 x4 x5 x6 x7 x12 x13 x14 e q

end Cert.RefEdge

end
-- ==== Proof.LibConcatPair.lean ====
/-
  Two arrays laid side by side along one axis, read at an entry.

  Two matrices [n, a] and [n, b] concatenated along their columns give [n, c], with c = a + b by the concatenation's own
  side condition: column q < a is column q of the first, column a + j is column j of the second. The same for two
  vectors of a and b entries concatenated into one of c. Library imports only.
-/
import Idealize.ShloMosaic.Lib.Pipeline.Value
import Idealize.ShloMosaic.Lib.ValueIdx

noncomputable section

namespace Cert.LibConcatPair

open Idealize.ShloMosaic Idealize.ShloMosaic.ValueIdx

variable {α : Type}

/-- A column of the left matrix: entry (k, q) of the pair, for q = j below the first extent, is entry (k, j) of the
    first. -/
theorem cols_left {n a b c : ℕ} (x : (⟨2, ![n, a]⟩ : Shape).Idx → α) (y : (⟨2, ![n, b]⟩ : Shape).Idx → α)
    (hc : Shape.Concatenates [(⟨2, ![n, a]⟩ : Shape), ⟨2, ![n, b]⟩] ⟨2, ![n, c]⟩ 1)
    (k : Fin n) (j : Fin a) (q : Fin c) (hq : q.val = j.val) :
    concatenate ⟨2, ![n, c]⟩ 1 [⟨⟨2, ![n, a]⟩, x⟩, ⟨⟨2, ![n, b]⟩, y⟩] hc (ix2 k q) = x (ix2 k j) :=
  concatenate_pair_apply_left 1 x y hc (ix2 k q) rfl (ix2 k j) (fun d => by
    match d with
    | ⟨0, _⟩ => rfl
    | ⟨1, _⟩ => exact hq.symm)

/-- A column of the right matrix: entry (k, q) of the pair, for q = a + j, is entry (k, j) of the second. -/
theorem cols_right {n a b c : ℕ} (x : (⟨2, ![n, a]⟩ : Shape).Idx → α) (y : (⟨2, ![n, b]⟩ : Shape).Idx → α)
    (hc : Shape.Concatenates [(⟨2, ![n, a]⟩ : Shape), ⟨2, ![n, b]⟩] ⟨2, ![n, c]⟩ 1)
    (k : Fin n) (j : Fin b) (q : Fin c) (hq : q.val = a + j.val) :
    concatenate ⟨2, ![n, c]⟩ 1 [⟨⟨2, ![n, a]⟩, x⟩, ⟨⟨2, ![n, b]⟩, y⟩] hc (ix2 k q) = y (ix2 k j) :=
  concatenate_pair_apply_right 1 x y hc (ix2 k q) rfl rfl (ix2 k j) (fun d hd => by
    match d, hd with
    | ⟨0, _⟩, _ => rfl
    | ⟨1, _⟩, hd => exact (hd (Fin.ext rfl)).elim) (by show j.val + a = q.val; omega)

/-- An entry of the left vector. -/
theorem vec_left {a b c : ℕ} (x : (⟨1, ![a]⟩ : Shape).Idx → α) (y : (⟨1, ![b]⟩ : Shape).Idx → α)
    (hc : Shape.Concatenates [(⟨1, ![a]⟩ : Shape), ⟨1, ![b]⟩] ⟨1, ![c]⟩ 0)
    (j : Fin a) (q : Fin c) (hq : q.val = j.val) :
    concatenate ⟨1, ![c]⟩ 0 [⟨⟨1, ![a]⟩, x⟩, ⟨⟨1, ![b]⟩, y⟩] hc (ix1 q) = x (ix1 j) :=
  concatenate_pair_apply_left 0 x y hc (ix1 q) rfl (ix1 j) (fun d => by
    match d with
    | ⟨0, _⟩ => exact hq.symm)

/-- An entry of the right vector. -/
theorem vec_right {a b c : ℕ} (x : (⟨1, ![a]⟩ : Shape).Idx → α) (y : (⟨1, ![b]⟩ : Shape).Idx → α)
    (hc : Shape.Concatenates [(⟨1, ![a]⟩ : Shape), ⟨1, ![b]⟩] ⟨1, ![c]⟩ 0)
    (j : Fin b) (q : Fin c) (hq : q.val = a + j.val) :
    concatenate ⟨1, ![c]⟩ 0 [⟨⟨1, ![a]⟩, x⟩, ⟨⟨1, ![b]⟩, y⟩] hc (ix1 q) = y (ix1 j) :=
  concatenate_pair_apply_right 0 x y hc (ix1 q) rfl rfl (ix1 j) (fun d hd => by
    match d, hd with
    | ⟨0, _⟩, hd => exact (hd (Fin.ext rfl)).elim) (by show j.val + a = q.val; omega)

end Cert.LibConcatPair

end
-- ==== Proof.RefNode.lean ====
/-
  The reference program's node stage, read entry by entry.

  The reference lays a node's own features x (128 numbers) and its summed incoming messages s (128 numbers) side by side
  as one row (x, s) of 256 numbers, multiplies by the stacked [256,128] matrix, adds the bias, applies
  silu t = t · 1/(1 + e^(-t)) (printed as negate, exponential, add 1, divide 1 by, multiply), multiplies by the second
  [128,128] matrix and adds the second bias.  A product of the row (x, s) with the stacked matrix is the sum of the two
  block products, x · (rows 0–127) + s · (rows 128–255), so entry (e, j) of the result is the specification's
  nodeOut of row e of x and row e of s at j.  The summed messages are kept as an opaque array.
-/
import proofs.«117037_j42511586296497_1_alg».proof.Proof.Gen.ReferenceIdeal.Read
import proofs.«117037_j42511586296497_1_alg».proof.Proof.Spec
import proofs.«117037_j42511586296497_1_alg».proof.Proof.LibConcatPair
import proofs.«117037_j42511586296497_1_alg».proof.Proof.LibSigmoid

noncomputable section

namespace Cert.RefNode

open Cert.ReferenceIdeal Cert.ReferenceIdeal.Gen Cert.ReferenceIdeal.Read Cert.Egnn Idealize.ShloMosaic Idealize.ShloMosaic.ValueIdx
open scoped BigOperators

variable (x0 : (⟨S40000x128, .f32⟩ : BufTy).Contents (Elt Ideal)) (x1 : (⟨S40000x3, .f32⟩ : BufTy).Contents (Elt Ideal))
  (x2 x3 : (⟨S640000, .i32⟩ : BufTy).Contents (Elt Ideal)) (x4 : (⟨S257x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal)) (x8 : (⟨S256x128, .f32⟩ : BufTy).Contents (Elt Ideal))
  (x9 : (⟨S128, .f32⟩ : BufTy).Contents (Elt Ideal)) (x10 : (⟨S128x128, .f32⟩ : BufTy).Contents (Elt Ideal))
  (x11 : (⟨S128, .f32⟩ : BufTy).Contents (Elt Ideal))

/-- The first bias, laid under every row, reads at (e, k) its entry k. -/
theorem v73_at (e : Fin 40000) (k : Fin 128) : val_main_v73 (F := Ideal) x9 (ix2 e k) = x9 (ix1 k) := by
  rw [val_main_v73_apply, val_main_v72_apply]
  exact congrArg x9 (funext fun a => Fin.ext (by match a with | ⟨0, _⟩ => rfl))

/-- The second bias, laid under every row, reads at (e, j) its entry j. -/
theorem v78_at (e : Fin 40000) (j : Fin 128) : val_main_v78 (F := Ideal) x11 (ix2 e j) = x11 (ix1 j) := by
  rw [val_main_v78_apply, val_main_v77_apply]
  exact congrArg x11 (funext fun a => Fin.ext (by match a with | ⟨0, _⟩ => rfl))

/-- The left index of the first product at (e, c), summand k, is (e, k). -/
theorem lidx71 (e : Fin 40000) (c : Fin 128) (k : Fin 256) : lidx_main_v71 (ix2 e c) k = ix2 e k :=
  funext fun a => Fin.ext (by match a with | ⟨0, _⟩ => rfl | ⟨1, _⟩ => rfl)

/-- The right index of the first product at (e, c), summand k, is (k, c). -/
theorem ridx71 (e : Fin 40000) (c : Fin 128) (k : Fin 256) : ridx_main_v71 (ix2 e c) k = ix2 k c :=
  funext fun a => Fin.ext (by match a with | ⟨0, _⟩ => rfl | ⟨1, _⟩ => rfl)

/-- The left index of the second product at (e, j), summand k, is (e, k). -/
theorem lidx76 (e : Fin 40000) (j : Fin 128) (k : Fin 128) : lidx_main_v76 (ix2 e j) k = ix2 e k :=
  funext fun a => Fin.ext (by match a with | ⟨0, _⟩ => rfl | ⟨1, _⟩ => rfl)

/-- The right index of the second product at (e, j), summand k, is (k, j). -/
theorem ridx76 (e : Fin 40000) (j : Fin 128) (k : Fin 128) : ridx_main_v76 (ix2 e j) k = ix2 k j :=
  funext fun a => Fin.ext (by match a with | ⟨0, _⟩ => rfl | ⟨1, _⟩ => rfl)

/-- The product of the row (x, s) with the stacked matrix at (e, c): the two block products. -/
theorem v71_at (e : Fin 40000) (c : Fin 128) :
    val_main_v71 (F := Ideal) x0 x1 x2 x3 x4 x5 x6 x7 x8 (ix2 e c)
      = (∑ i : Fin 128, x0 (ix2 e i) * rowsFrom 0 (by omega) x8 i c)
        + (∑ i : Fin 128, val_main_v58 (F := Ideal) x0 x1 x2 x3 x4 x5 x6 x7 (ix2 e i) * rowsFrom 128 (by omega) x8 i c) := by
  rw [val_main_v71_apply]
  have h : ∀ k : Fin 256, val_main_v70 (F := Ideal) x0 x1 x2 x3 x4 x5 x6 x7 (lidx_main_v71 (ix2 e c) k) * x8 (ridx_main_v71 (ix2 e c) k)
      = val_main_v70 (F := Ideal) x0 x1 x2 x3 x4 x5 x6 x7 (ix2 e k) * x8 (ix2 k c) := fun k => by rw [lidx71, ridx71]
  rw [Finset.sum_congr rfl fun k _ => h k, sum_two_blocks]
  refine congrArg₂ (· + ·) (Finset.sum_congr rfl fun i _ => ?_) (Finset.sum_congr rfl fun i _ => ?_)
  · refine congrArg₂ (· * ·) ?_ ?_
    · exact LibConcatPair.cols_left x0 (val_main_v58 (F := Ideal) x0 x1 x2 x3 x4 x5 x6 x7)
        concatenates_S40000x128_S40000x128_S40000x256_d1 e i _ rfl
    · exact congrArg x8 (congrArg (fun t => ix2 t c) (Fin.ext (Nat.zero_add i.val).symm))
  · refine congrArg₂ (· * ·) ?_ rfl
    exact LibConcatPair.cols_right x0 (val_main_v58 (F := Ideal) x0 x1 x2 x3 x4 x5 x6 x7)
      concatenates_S40000x128_S40000x128_S40000x256_d1 e i _ rfl

/-- The first layer before its activation at (e, k): the two block products plus the bias. -/
theorem v74_at (e : Fin 40000) (k : Fin 128) :
    val_main_v74 (F := Ideal) x0 x1 x2 x3 x4 x5 x6 x7 x8 x9 (ix2 e k)
      = ((∑ i : Fin 128, x0 (ix2 e i) * rowsFrom 0 (by omega) x8 i k)
          + (∑ i : Fin 128, val_main_v58 (F := Ideal) x0 x1 x2 x3 x4 x5 x6 x7 (ix2 e i) * rowsFrom 128 (by omega) x8 i k))
        + x9 (ix1 k) := by
  rw [val_main_v74_apply, v71_at, v73_at]
  rfl

/-- The hidden layer at (e, k): silu of the first layer.  The program spells silu t as t · (1 / (1 + e^(-t))), with
    the constant 1 given by its f32 word. -/
theorem v75_at (e : Fin 40000) (k : Fin 128) :
    val_main_v75 (F := Ideal) x0 x1 x2 x3 x4 x5 x6 x7 x8 x9 (ix2 e k)
      = silu (((∑ i : Fin 128, x0 (ix2 e i) * rowsFrom 0 (by omega) x8 i k)
          + (∑ i : Fin 128, val_main_v58 (F := Ideal) x0 x1 x2 x3 x4 x5 x6 x7 (ix2 e i) * rowsFrom 128 (by omega) x8 i k))
        + x9 (ix1 k)) := by
  rw [val_main_v75_apply, val_main_call3_v5_apply, val_main_call3_v4_apply, val_main_call3_cst_0_apply,
    val_main_call3_v3_apply, val_main_call3_v2_apply, val_main_call3_cst_apply, val_main_call3_v1_apply,
    val_main_call3_v0_apply, v74_at]
  show _ * Ideal.div (Ideal.ofBits .f32 0x3F800000#32) (Ideal.ofBits .f32 0x3F800000#32 + Ideal.exp (-_)) = _
  rw [LibSigmoid.ofBits_one]
  rfl

/-- The reference's node stage is the specification's node update of every row. -/
theorem ref_out :
    val_main_v79 (F := Ideal) x0 x1 x2 x3 x4 x5 x6 x7 x8 x9 x10 x11
      = nodeOutArr (nodeWOf x8 x9 x10 x11) x0 (val_main_v58 (F := Ideal) x0 x1 x2 x3 x4 x5 x6 x7) := by
  funext i
  obtain ⟨e, j, rfl⟩ : ∃ (e : Fin 40000) (j : Fin 128), i = ix2 e j := ⟨i 0, i 1, eq_ix2 i⟩
  rw [nodeOutArr_apply, val_main_v79_apply, val_main_v76_apply, v78_at]
  have h : ∀ k : Fin 128, val_main_v75 (F := Ideal) x0 x1 x2 x3 x4 x5 x6 x7 x8 x9 (lidx_main_v76 (ix2 e j) k) * x10 (ridx_main_v76 (ix2 e j) k)
      = silu (((∑ i : Fin 128, x0 (ix2 e i) * rowsFrom 0 (by omega) x8 i k)
          + (∑ i : Fin 128, val_main_v58 (F := Ideal) x0 x1 x2 x3 x4 x5 x6 x7 (ix2 e i) * rowsFrom 128 (by omega) x8 i k))
        + x9 (ix1 k)) * x10 (ix2 k j) := fun k => by rw [lidx76, ridx76, v75_at]
  rw [Finset.sum_congr rfl fun k _ => h k]
  rfl

end Cert.RefNode

end
-- ==== Proof.LibSliceRows.lean ====
/-
  A block of consecutive rows cut out of a taller matrix, read at an entry.

  For an [r, c] matrix A, the slice of b rows starting at row o (all c columns, unit strides) reads, at (i, j), the
  entry (o + i, j) of A.  What a host program's split of a stacked weight matrix into its row blocks needs: the product
  of a concatenated row with the stacked matrix is the sum of the products of the parts with these blocks.
  Library imports only.
-/
import Idealize.ShloMosaic.Lib.Pipeline.Value
import Idealize.ShloMosaic.Lib.ValueIdx

namespace Cert.LibSliceRows

open Idealize.ShloMosaic Idealize.ShloMosaic.ValueIdx

/-- Rows o … o + b - 1 of an [r, c] matrix, at (i, j): the matrix at (o + i, j). -/
theorem rows_apply {α : Type} {r b c : ℕ} (o : ℕ) (A : (⟨2, ![r, c]⟩ : Shape).Idx → α)
    (hs : (⟨2, ![r, c]⟩ : Shape).Slices ![o, 0] ⟨2, ![b, c]⟩) (i : Fin b) (j : Fin c) (ho : o + i.val < r) :
    extractStridedSlice ⟨2, ![b, c]⟩ ![o, 0] A hs (ix2 i j) = A (ix2 (⟨o + i.val, ho⟩ : Fin r) j) := by
  refine extractStridedSlice_apply ![o, 0] A hs (ix2 i j) (ix2 (⟨o + i.val, ho⟩ : Fin r) j) fun ax => ?_
  match ax with
  | ⟨0, _⟩ => rfl
  | ⟨1, _⟩ => show j.val = 0 + j.val; omega

end Cert.LibSliceRows
-- ==== Proof.Assembly.lean ====
/-
  The idealized kernel program computes the reference's two results.

  Followed boundary by boundary through the kernel program: the edge kernel's two output arrays are the specification's
  feature and coordinate messages at the weights cut out of the arguments (the host's slices of the first layer's
  matrix are its three row blocks), which are the reference's own message arrays; the host then sums them into their
  destination nodes exactly as the reference does; the node kernel's output is the specification's node update at the
  two row blocks of the node network's first matrix, which is the reference's first result; and the final addition of
  the mean coordinate message is the reference's second result.
-/
import proofs.«117037_j42511586296497_1_alg».proof.Defs
import proofs.«117037_j42511586296497_1_alg».proof.Proof.RunAll
import proofs.«117037_j42511586296497_1_alg».proof.Proof.HostChain
import proofs.«117037_j42511586296497_1_alg».proof.Proof.EdgeRegion
import proofs.«117037_j42511586296497_1_alg».proof.Proof.NodeRegion
import proofs.«117037_j42511586296497_1_alg».proof.Proof.RefEdge
import proofs.«117037_j42511586296497_1_alg».proof.Proof.RefNode
import proofs.«117037_j42511586296497_1_alg».proof.Proof.LibSliceRows
import Idealize.ShloMosaic.Lib.Pipeline.Value

set_option maxRecDepth 16384

noncomputable section

namespace Cert.KernelIdeal.Assembly

open Cert.KernelIdeal Cert.KernelIdeal.Gen Cert.KernelIdeal.Chain Cert.Egnn
open Idealize.ShloMosaic Idealize.ShloMosaic.TcCoe Idealize.ShloMosaic.ValueIdx Idealize.SL.Sem

/-! ## A slice of 128 rows of a taller matrix is its row block -/

theorem slice_rows {r : ℕ} (o : ℕ) (ho : o + 128 ≤ r) (A : (⟨2, ![r, 128]⟩ : Shape).Idx → EReal)
    (hs : (⟨2, ![r, 128]⟩ : Shape).Slices ![o, 0] ⟨2, ![128, 128]⟩) :
    mat (extractStridedSlice ⟨2, ![128, 128]⟩ ![o, 0] A hs) = rowsFrom o ho A := by
  funext i j
  exact Cert.LibSliceRows.rows_apply o A hs i j (by have := i.isLt; omega)

theorem slice_row {r : ℕ} (o : ℕ) (ho : o < r) (A : (⟨2, ![r, 128]⟩ : Shape).Idx → EReal)
    (hs : (⟨2, ![r, 128]⟩ : Shape).Slices ![o, 0] ⟨2, ![1, 128]⟩) (j : Fin 128) :
    extractStridedSlice ⟨2, ![1, 128]⟩ ![o, 0] A hs (ix2 (0 : Fin 1) j) = A (ix2 (⟨o, ho⟩ : Fin r) j) := by
  exact Cert.LibSliceRows.rows_apply o A hs (0 : Fin 1) j (by show o + 0 < r; omega)

variable (m : (ℓ : Loc nD τ sig) → Buf (Elt Ideal) ℓ) (ρ : Dev nD → PrngReg) (c : Dev nD)

/-- The weights the edge kernel finds in its weight arrays are the arguments' weights, the first matrix in blocks. -/
theorem entry_weights : Cert.KernelIdeal.EdgeRegion.entryW (V1 m ρ) c = edgeWOf (a4 m c) (a5 m c) (a6 m c) (a7 m c) (a12 m c) (a13 m c) (a14 m c) := by
  unfold Cert.KernelIdeal.EdgeRegion.entryW Cert.KernelIdeal.EdgePayload.blockW edgeWOf
  rw [entry0_wa, entry0_wb, entry0_wd, entry0_b1, entry0_w2, entry0_b2, entry0_wc1, entry0_bc1, entry0_wc2]
  rw [slice_rows 0 (by omega) ((a4 m c) : S257x128.Idx → EReal), slice_rows 128 (by omega) ((a4 m c) : S257x128.Idx → EReal)]
  simp only [slice_row 256 (by omega) ((a4 m c) : S257x128.Idx → EReal)]

/-- The weights the node kernel finds in its weight arrays are the arguments' weights, the first matrix in blocks. -/
theorem node_weights :
    (⟨mat (V3 m ρ c main_v55), mat (V3 m ρ c main_v57), vec (V3 m ρ c main_arg9), mat (V3 m ρ c main_v58), vec (V3 m ρ c main_arg11)⟩ : NodeW)
      = nodeWOf (a8 m c) (a9 m c) (a10 m c) (a11 m c) := by
  unfold nodeWOf
  rw [entry1_wn, entry1_wh, entry1_b1, entry1_w2, entry1_b2]
  rw [slice_rows 0 (by omega) ((a8 m c) : S256x128.Idx → EReal), slice_rows 128 (by omega) ((a8 m c) : S256x128.Idx → EReal)]

/-- After the edge kernel its first output array holds the reference's feature messages. -/
theorem features_are_reference :
    (W2 m ρ c (Proc.devRef .tc main_v39_0) : S640000x128.Idx → EReal)
      = Cert.ReferenceIdeal.Read.val_main_v47 (F := Ideal) (a0 m c) (a1 m c) (a2 m c) (a3 m c) (a4 m c) (a5 m c) (a6 m c) (a7 m c) := by
  rw [mid_features, Cert.KernelIdeal.EdgeRegion.features_final (V1 m ρ) c, entry_weights, entry0_src_feat, entry0_dst_feat, entry0_diff]
  exact (Cert.RefEdge.ref_msgH (a0 m c) (a1 m c) (a2 m c) (a3 m c) (a4 m c) (a5 m c) (a6 m c) (a7 m c) (a12 m c) (a13 m c) (a14 m c)).symm

/-- After the edge kernel its second output array holds the reference's coordinate messages. -/
theorem coords_are_reference :
    (W2 m ρ c (Proc.devRef .tc main_v39_1) : S640000x3.Idx → EReal)
      = Cert.ReferenceIdeal.Read.val_main_v55 (F := Ideal) (a0 m c) (a1 m c) (a2 m c) (a3 m c) (a4 m c) (a5 m c) (a6 m c) (a7 m c) (a12 m c) (a13 m c) (a14 m c) := by
  rw [mid_coords, Cert.KernelIdeal.EdgeRegion.coords_final (V1 m ρ) c, entry_weights, entry0_src_feat, entry0_dst_feat, entry0_diff]
  exact (Cert.RefEdge.ref_msgX (a0 m c) (a1 m c) (a2 m c) (a3 m c) (a4 m c) (a5 m c) (a6 m c) (a7 m c) (a12 m c) (a13 m c) (a14 m c)).symm

/-- THE FIRST RESULT of the kernel program is the reference's. -/
theorem kernel_features :
    (W5 m ρ c (Proc.devRef .tc main_v59) : S40000x128.Idx → EReal)
      = Cert.ReferenceIdeal.Read.val_main_v79 (F := Ideal) (a0 m c) (a1 m c) (a2 m c) (a3 m c) (a4 m c) (a5 m c) (a6 m c) (a7 m c) (a8 m c) (a9 m c) (a10 m c) (a11 m c) := by
  rw [exit_features, Cert.KernelIdeal.NodeRegion.node_final (V3 m ρ) c, node_weights, entry1_feat,
    entry1_messages m ρ c _ (features_are_reference m ρ c)]
  exact (Cert.RefNode.ref_out (a0 m c) (a1 m c) (a2 m c) (a3 m c) (a4 m c) (a5 m c) (a6 m c) (a7 m c) (a8 m c) (a9 m c) (a10 m c) (a11 m c)).symm

/-- THE SECOND RESULT of the kernel program is the reference's. -/
theorem kernel_coords :
    (W5 m ρ c (Proc.devRef .tc main_v60) : S40000x3.Idx → EReal)
      = Cert.ReferenceIdeal.Read.val_main_v80 (F := Ideal) (a0 m c) (a1 m c) (a2 m c) (a3 m c) (a4 m c) (a5 m c) (a6 m c) (a7 m c) (a12 m c) (a13 m c) (a14 m c) := by
  rw [exit_coords m ρ c _ (coords_are_reference m ρ c)]
  rfl

end Cert.KernelIdeal.Assembly

end
-- ==== Proof.lean ====
/-
  A message-passing layer (an edge network on gathered node features and coordinate differences, two segment sums, a
  node network) computed by two tiled kernels with the gathers, the segment sums and the weight slices on the host,
  against the same layer written with whole-array operations: on the extended reals the two programs end with equal
  results.

  The two programs differ in three ways, none of which the extended reals can see.  (1) The kernels round their matrix
  operands to a narrower float format; a change of format is the identity here.  (2) The reference multiplies the
  concatenated row (a, b, |d|) by the whole [257,128] matrix and the row (x, s) by the whole [256,128] matrix, the
  kernels multiply each part by its row block and add: a finite sum over 257 = 128 + 128 + 1 (resp. 256 = 128 + 128)
  terms is the sum of its blocks' sums, by associativity of + alone, so no finiteness of the inputs is needed.  (3)
  The kernels work on blocks of 2560 edges and 4000 nodes; every output row depends only on the same row of the
  moving inputs, so the blocks are restrictions of one whole-array function and tile the arrays.  The activation
  t · 1/(1 + e^(-t)) is spelt by one operation in the kernels and by negate, exponential, add, divide in the reference:
  one function by definition.  The gathers, the segment sums, the division by the in-degree and the final addition
  are the same host operations on both sides.
-/
import proofs.«117037_j42511586296497_1_alg».proof.Defs
import proofs.«117037_j42511586296497_1_alg».proof.Proof.Gen.Kernel
import proofs.«117037_j42511586296497_1_alg».proof.Proof.Gen.Kernel.Frame
import proofs.«117037_j42511586296497_1_alg».proof.Proof.Gen.KernelIdeal
import proofs.«117037_j42511586296497_1_alg».proof.Proof.Gen.KernelIdeal.Frame
import proofs.«117037_j42511586296497_1_alg».proof.Proof.Gen.ReferenceIdeal
import proofs.«117037_j42511586296497_1_alg».proof.Proof.Gen.Pre_finite_inputs
import proofs.«117037_j42511586296497_1_alg».proof.Proof.Gen.ReferenceIdeal.Run
import proofs.«117037_j42511586296497_1_alg».proof.Proof.Gen.ReferenceIdeal.Read
import proofs.«117037_j42511586296497_1_alg».proof.Proof.Assembly
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- Both programs end at the reference's two result terms of the (agreeing) arguments. -/
theorem algebraic : Cert.algebraic_KernelIdeal_ReferenceIdeal := by
  intro m ρ m' ρ' _ hagree
  refine ⟨fun c => Cert.ReferenceIdeal.Read.val_main_v79 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v80 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · refine (θ_run Cert.KernelIdeal.defs _ _).mono (fun r h c => ?_) (Cert.KernelIdeal.RunAll.run_all (F := Ideal) m ρ)
    exact ⟨(h c _ (Cert.KernelIdeal.Gen.mem_uc Cert.KernelIdeal.main_v59 (by decide))).trans (Cert.KernelIdeal.Assembly.kernel_features m ρ c),
      (h c _ (Cert.KernelIdeal.Gen.mem_uc Cert.KernelIdeal.main_v60 (by decide))).trans (Cert.KernelIdeal.Assembly.kernel_coords m ρ c),
      (h c _ (Cert.KernelIdeal.Gen.mem_uc Cert.KernelIdeal.main_arg0 (by decide))).trans (Cert.KernelIdeal.Gen.W5_main_arg0 m ρ c),
      (h c _ (Cert.KernelIdeal.Gen.mem_uc Cert.KernelIdeal.main_arg1 (by decide))).trans (Cert.KernelIdeal.Gen.W5_main_arg1 m ρ c),
      (h c _ (Cert.KernelIdeal.Gen.mem_uc Cert.KernelIdeal.main_arg2 (by decide))).trans (Cert.KernelIdeal.Gen.W5_main_arg2 m ρ c),
      (h c _ (Cert.KernelIdeal.Gen.mem_uc Cert.KernelIdeal.main_arg3 (by decide))).trans (Cert.KernelIdeal.Gen.W5_main_arg3 m ρ c),
      (h c _ (Cert.KernelIdeal.Gen.mem_uc Cert.KernelIdeal.main_arg4 (by decide))).trans (Cert.KernelIdeal.Gen.W5_main_arg4 m ρ c),
      (h c _ (Cert.KernelIdeal.Gen.mem_uc Cert.KernelIdeal.main_arg5 (by decide))).trans (Cert.KernelIdeal.Gen.W5_main_arg5 m ρ c),
      (h c _ (Cert.KernelIdeal.Gen.mem_uc Cert.KernelIdeal.main_arg6 (by decide))).trans (Cert.KernelIdeal.Gen.W5_main_arg6 m ρ c),
      (h c _ (Cert.KernelIdeal.Gen.mem_uc Cert.KernelIdeal.main_arg7 (by decide))).trans (Cert.KernelIdeal.Gen.W5_main_arg7 m ρ c),
      (h c _ (Cert.KernelIdeal.Gen.mem_uc Cert.KernelIdeal.main_arg8 (by decide))).trans (Cert.KernelIdeal.Gen.W5_main_arg8 m ρ c),
      (h c _ (Cert.KernelIdeal.Gen.mem_uc Cert.KernelIdeal.main_arg9 (by decide))).trans (Cert.KernelIdeal.Gen.W5_main_arg9 m ρ c),
      (h c _ (Cert.KernelIdeal.Gen.mem_uc Cert.KernelIdeal.main_arg10 (by decide))).trans (Cert.KernelIdeal.Gen.W5_main_arg10 m ρ c),
      (h c _ (Cert.KernelIdeal.Gen.mem_uc Cert.KernelIdeal.main_arg11 (by decide))).trans (Cert.KernelIdeal.Gen.W5_main_arg11 m ρ c),
      (h c _ (Cert.KernelIdeal.Gen.mem_uc Cert.KernelIdeal.main_arg12 (by decide))).trans (Cert.KernelIdeal.Gen.W5_main_arg12 m ρ c),
      (h c _ (Cert.KernelIdeal.Gen.mem_uc Cert.KernelIdeal.main_arg13 (by decide))).trans (Cert.KernelIdeal.Gen.W5_main_arg13 m ρ c),
      (h c _ (Cert.KernelIdeal.Gen.mem_uc Cert.KernelIdeal.main_arg14 (by decide))).trans (Cert.KernelIdeal.Gen.W5_main_arg14 m ρ c)⟩
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14⟩ := hagree c
      rw [Cert.ReferenceIdeal.Read.val_main_v79_eq, h0, h1, h2, h3, h4, h5, h6, h7, h8, h9, h10, h11]
    · obtain ⟨h0, h1, h2, h3, h4, h5, h6, h7, h8, h9, h10, h11, h12, h13, h14⟩ := hagree c
      rw [Cert.ReferenceIdeal.Read.val_main_v80_eq, h0, h1, h2, h3, h4, h5, h6, h7, h12, h13, h14]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
